-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x2 : Shape := ⟨3, ![64, 2048, 2]⟩
abbrev S64x2 : Shape := ⟨2, ![64, 2]⟩
abbrev S64x2x256 : Shape := ⟨3, ![64, 2, 256]⟩
abbrev S64x256 : Shape := ⟨2, ![64, 256]⟩
abbrev S64x256x256 : Shape := ⟨3, ![64, 256, 256]⟩
abbrev S64x256x4 : Shape := ⟨3, ![64, 256, 4]⟩
abbrev S64x4 : Shape := ⟨2, ![64, 4]⟩
abbrev S_ : Shape := ⟨0, ![]⟩

class Facts : Prop where
  bcast_S_S64x2048x2 : S_.BroadcastsInDim S64x2048x2 (![] : Fin 0 → Fin S64x2048x2.rank)
  reducesTo_S64x2048x2_S_d0_1_2 : S64x2048x2.ReducesTo [0, 1, 2] S_
  h_S_ : 0 < S_.numel
  bcast_S_S64x2 : S_.BroadcastsInDim S64x2 (![] : Fin 0 → Fin S64x2.rank)
  reducesTo_S64x2_S_d0_1 : S64x2.ReducesTo [0, 1] S_
  bcast_S_S64x2x256 : S_.BroadcastsInDim S64x2x256 (![] : Fin 0 → Fin S64x2x256.rank)
  reducesTo_S64x2x256_S_d0_1_2 : S64x2x256.ReducesTo [0, 1, 2] S_
  bcast_S_S64x256 : S_.BroadcastsInDim S64x256 (![] : Fin 0 → Fin S64x256.rank)
  reducesTo_S64x256_S_d0_1 : S64x256.ReducesTo [0, 1] S_
  bcast_S_S64x256x256 : S_.BroadcastsInDim S64x256x256 (![] : Fin 0 → Fin S64x256x256.rank)
  reducesTo_S64x256x256_S_d0_1_2 : S64x256x256.ReducesTo [0, 1, 2] S_
  bcast_S_S64x256x4 : S_.BroadcastsInDim S64x256x4 (![] : Fin 0 → Fin S64x256x4.rank)
  reducesTo_S64x256x4_S_d0_1_2 : S64x256x4.ReducesTo [0, 1, 2] S_
  bcast_S_S64x4 : S_.BroadcastsInDim S64x4 (![] : Fin 0 → Fin S64x4.rank)
  reducesTo_S64x4_S_d0_1 : S64x4.ReducesTo [0, 1] S_

variable [Facts]

def fn_part2 {F : FTy → Type} [FloatOps F] (main_arg7 : FVec F S64x256x4 .f32) (main_arg8 : FVec F S64x4 .f32) (main_v33 : IVec S_ 1) : IVec S_ 1 :=
  let main_v34 : FVec F S64x256x4 .f32 := Host.absf main_arg7
  let main_cst_12 : FVec F S_ .f32 := constant S_ .f32 0x7F800000#32
  let main_v35 : FVec F S64x256x4 .f32 := broadcastInDim S64x256x4 ![] bcast_S_S64x256x4 main_cst_12
  let main_v36 : IVec S64x256x4 1 := cmpf .olt main_v34 main_v35
  let main_c_13 : IVec S_ 1 := constantI S_ 1 1#1
  let main_v37 : IVec S_ 1 := (fun x v => Host.reduce IntOp.andi x v reducesTo_S64x256x4_S_d0_1_2 h_S_) main_v36 main_c_13
  let main_v38 : IVec S_ 1 := andi main_v33 main_v37
  let main_v39 : FVec F S64x4 .f32 := Host.absf main_arg8
  let main_cst_14 : FVec F S_ .f32 := constant S_ .f32 0x7F800000#32
  let main_v40 : FVec F S64x4 .f32 := broadcastInDim S64x4 ![] bcast_S_S64x4 main_cst_14
  let main_v41 : IVec S64x4 1 := cmpf .olt main_v39 main_v40
  let main_c_15 : IVec S_ 1 := constantI S_ 1 1#1
  let main_v42 : IVec S_ 1 := (fun x v => Host.reduce IntOp.andi x v reducesTo_S64x4_S_d0_1 h_S_) main_v41 main_c_15
  let main_v43 : IVec S_ 1 := andi main_v38 main_v42
  main_v43

def fn_part1 {F : FTy → Type} [FloatOps F] (main_arg4 : FVec F S64x256 .f32) (main_arg5 : FVec F S64x256x256 .f32) (main_arg6 : FVec F S64x256 .f32) (main_arg7 : FVec F S64x256x4 .f32) (main_arg8 : FVec F S64x4 .f32) (main_v13 : IVec S_ 1) (main_v16 : IVec S64x2x256 1) : IVec S_ 1 :=
  let main_c_5 : IVec S_ 1 := constantI S_ 1 1#1
  let main_v17 : IVec S_ 1 := (fun x v => Host.reduce IntOp.andi x v reducesTo_S64x2x256_S_d0_1_2 h_S_) main_v16 main_c_5
  let main_v18 : IVec S_ 1 := andi main_v13 main_v17
  let main_v19 : FVec F S64x256 .f32 := Host.absf main_arg4
  let main_cst_6 : FVec F S_ .f32 := constant S_ .f32 0x7F800000#32
  let main_v20 : FVec F S64x256 .f32 := broadcastInDim S64x256 ![] bcast_S_S64x256 main_cst_6
  let main_v21 : IVec S64x256 1 := cmpf .olt main_v19 main_v20
  let main_c_7 : IVec S_ 1 := constantI S_ 1 1#1
  let main_v22 : IVec S_ 1 := (fun x v => Host.reduce IntOp.andi x v reducesTo_S64x256_S_d0_1 h_S_) main_v21 main_c_7
  let main_v23 : IVec S_ 1 := andi main_v18 main_v22
  let main_v24 : FVec F S64x256x256 .f32 := Host.absf main_arg5
  let main_cst_8 : FVec F S_ .f32 := constant S_ .f32 0x7F800000#32
  let main_v25 : FVec F S64x256x256 .f32 := broadcastInDim S64x256x256 ![] bcast_S_S64x256x256 main_cst_8
  let main_v26 : IVec S64x256x256 1 := cmpf .olt main_v24 main_v25
  let main_c_9 : IVec S_ 1 := constantI S_ 1 1#1
  let main_v27 : IVec S_ 1 := (fun x v => Host.reduce IntOp.andi x v reducesTo_S64x256x256_S_d0_1_2 h_S_) main_v26 main_c_9
  let main_v28 : IVec S_ 1 := andi main_v23 main_v27
  let main_v29 : FVec F S64x256 .f32 := Host.absf main_arg6
  let main_cst_10 : FVec F S_ .f32 := constant S_ .f32 0x7F800000#32
  let main_v30 : FVec F S64x256 .f32 := broadcastInDim S64x256 ![] bcast_S_S64x256 main_cst_10
  let main_v31 : IVec S64x256 1 := cmpf .olt main_v29 main_v30
  let main_c_11 : IVec S_ 1 := constantI S_ 1 1#1
  let main_v32 : IVec S_ 1 := (fun x v => Host.reduce IntOp.andi x v reducesTo_S64x256_S_d0_1 h_S_) main_v31 main_c_11
  let main_v33 : IVec S_ 1 := andi main_v28 main_v32
  fn_part2 (F := F) main_arg7 main_arg8 main_v33

def fn {F : FTy → Type} [FloatOps F] (main_arg0 : FVec F S64x2048x2 .f32) (main_arg1 : FVec F S64x2 .f32) (main_arg2 : FVec F S64x2 .f32) (main_arg3 : FVec F S64x2x256 .f32) (main_arg4 : FVec F S64x256 .f32) (main_arg5 : FVec F S64x256x256 .f32) (main_arg6 : FVec F S64x256 .f32) (main_arg7 : FVec F S64x256x4 .f32) (main_arg8 : FVec F S64x4 .f32) : IVec S_ 1 :=
  let main_v0 : FVec F S64x2048x2 .f32 := Host.absf main_arg0
  let main_cst : FVec F S_ .f32 := constant S_ .f32 0x7F800000#32
  let main_v1 : FVec F S64x2048x2 .f32 := broadcastInDim S64x2048x2 ![] bcast_S_S64x2048x2 main_cst
  let main_v2 : IVec S64x2048x2 1 := cmpf .olt main_v0 main_v1
  let main_c : IVec S_ 1 := constantI S_ 1 1#1
  let main_v3 : IVec S_ 1 := (fun x v => Host.reduce IntOp.andi x v reducesTo_S64x2048x2_S_d0_1_2 h_S_) main_v2 main_c
  let main_v4 : FVec F S64x2 .f32 := Host.absf main_arg1
  let main_cst_0 : FVec F S_ .f32 := constant S_ .f32 0x7F800000#32
  let main_v5 : FVec F S64x2 .f32 := broadcastInDim S64x2 ![] bcast_S_S64x2 main_cst_0
  let main_v6 : IVec S64x2 1 := cmpf .olt main_v4 main_v5
  let main_c_1 : IVec S_ 1 := constantI S_ 1 1#1
  let main_v7 : IVec S_ 1 := (fun x v => Host.reduce IntOp.andi x v reducesTo_S64x2_S_d0_1 h_S_) main_v6 main_c_1
  let main_v8 : IVec S_ 1 := andi main_v3 main_v7
  let main_v9 : FVec F S64x2 .f32 := Host.absf main_arg2
  let main_cst_2 : FVec F S_ .f32 := constant S_ .f32 0x7F800000#32
  let main_v10 : FVec F S64x2 .f32 := broadcastInDim S64x2 ![] bcast_S_S64x2 main_cst_2
  let main_v11 : IVec S64x2 1 := cmpf .olt main_v9 main_v10
  let main_c_3 : IVec S_ 1 := constantI S_ 1 1#1
  let main_v12 : IVec S_ 1 := (fun x v => Host.reduce IntOp.andi x v reducesTo_S64x2_S_d0_1 h_S_) main_v11 main_c_3
  let main_v13 : IVec S_ 1 := andi main_v8 main_v12
  let main_v14 : FVec F S64x2x256 .f32 := Host.absf main_arg3
  let main_cst_4 : FVec F S_ .f32 := constant S_ .f32 0x7F800000#32
  let main_v15 : FVec F S64x2x256 .f32 := broadcastInDim S64x2x256 ![] bcast_S_S64x2x256 main_cst_4
  let main_v16 : IVec S64x2x256 1 := cmpf .olt main_v14 main_v15
  fn_part1 (F := F) main_arg4 main_arg5 main_arg6 main_arg7 main_arg8 main_v13 main_v16
-- ==== Kernel.lean ====
abbrev S64x2048x2 : Shape := ⟨3, ![64, 2048, 2]⟩
abbrev S64x2 : Shape := ⟨2, ![64, 2]⟩
abbrev S64x2x256 : Shape := ⟨3, ![64, 2, 256]⟩
abbrev S64x256 : Shape := ⟨2, ![64, 256]⟩
abbrev S64x256x256 : Shape := ⟨3, ![64, 256, 256]⟩
abbrev S64x256x4 : Shape := ⟨3, ![64, 256, 4]⟩
abbrev S64x4 : Shape := ⟨2, ![64, 4]⟩
abbrev S64x1x4 : Shape := ⟨3, ![64, 1, 4]⟩
abbrev S64x1x256 : Shape := ⟨3, ![64, 1, 256]⟩
abbrev S64x2048x4 : Shape := ⟨3, ![64, 2048, 4]⟩
abbrev S1x2048x2 : Shape := ⟨3, ![1, 2048, 2]⟩
abbrev S1x1x4 : Shape := ⟨3, ![1, 1, 4]⟩
abbrev S1x2x256 : Shape := ⟨3, ![1, 2, 256]⟩
abbrev S1x1x256 : Shape := ⟨3, ![1, 1, 256]⟩
abbrev S1x256x256 : Shape := ⟨3, ![1, 256, 256]⟩
abbrev S1x256x4 : Shape := ⟨3, ![1, 256, 4]⟩
abbrev S1x2048x4 : Shape := ⟨3, ![1, 2048, 4]⟩
abbrev S2048x2 : Shape := ⟨2, ![2048, 2]⟩
abbrev S1x4 : Shape := ⟨2, ![1, 4]⟩
abbrev S2048x1 : Shape := ⟨2, ![2048, 1]⟩
abbrev S1x1 : Shape := ⟨2, ![1, 1]⟩
abbrev S2x256 : Shape := ⟨2, ![2, 256]⟩
abbrev S2048x256 : Shape := ⟨2, ![2048, 256]⟩
abbrev S1x256 : Shape := ⟨2, ![1, 256]⟩
abbrev S256x256 : Shape := ⟨2, ![256, 256]⟩
abbrev S256x4 : Shape := ⟨2, ![256, 4]⟩
abbrev S2048x4 : Shape := ⟨2, ![2048, 4]⟩

abbrev nBuf : Space → Nat
  | .hbm => 18
  | .vmem => 18
  | .smem => 0
  | _ => 0

abbrev bufTy : (tb : Table) → Fin (tcTables nBuf tb) → BufTy
  | .hbm, ⟨0, _⟩ => ⟨S64x2048x2, .f32⟩
  | .hbm, ⟨1, _⟩ => ⟨S64x2, .f32⟩
  | .hbm, ⟨2, _⟩ => ⟨S64x2, .f32⟩
  | .hbm, ⟨3, _⟩ => ⟨S64x2x256, .f32⟩
  | .hbm, ⟨4, _⟩ => ⟨S64x256, .f32⟩
  | .hbm, ⟨5, _⟩ => ⟨S64x256x256, .f32⟩
  | .hbm, ⟨6, _⟩ => ⟨S64x256, .f32⟩
  | .hbm, ⟨7, _⟩ => ⟨S64x256x4, .f32⟩
  | .hbm, ⟨8, _⟩ => ⟨S64x4, .f32⟩
  | .hbm, ⟨9, _⟩ => ⟨S64x4, .f32⟩
  | .hbm, ⟨10, _⟩ => ⟨S64x1x4, .f32⟩
  | .hbm, ⟨11, _⟩ => ⟨S64x1x256, .f32⟩
  | .hbm, ⟨12, _⟩ => ⟨S64x1x256, .f32⟩
  | .hbm, ⟨13, _⟩ => ⟨S64x1x4, .f32⟩
  | .hbm, ⟨14, _⟩ => ⟨S64x2x256, .bf16⟩
  | .hbm, ⟨15, _⟩ => ⟨S64x256x256, .bf16⟩
  | .hbm, ⟨16, _⟩ => ⟨S64x256x4, .bf16⟩
  | .hbm, ⟨17, _⟩ => ⟨S64x2048x4, .f32⟩
  | .local _ .vmem, ⟨0, _⟩ => ⟨S1x2048x2, .f32⟩
  | .local _ .vmem, ⟨1, _⟩ => ⟨S1x2048x2, .f32⟩
  | .local _ .vmem, ⟨2, _⟩ => ⟨S1x1x4, .f32⟩
  | .local _ .vmem, ⟨3, _⟩ => ⟨S1x1x4, .f32⟩
  | .local _ .vmem, ⟨4, _⟩ => ⟨S1x2x256, .bf16⟩
  | .local _ .vmem, ⟨5, _⟩ => ⟨S1x2x256, .bf16⟩
  | .local _ .vmem, ⟨6, _⟩ => ⟨S1x1x256, .f32⟩
  | .local _ .vmem, ⟨7, _⟩ => ⟨S1x1x256, .f32⟩
  | .local _ .vmem, ⟨8, _⟩ => ⟨S1x256x256, .bf16⟩
  | .local _ .vmem, ⟨9, _⟩ => ⟨S1x256x256, .bf16⟩
  | .local _ .vmem, ⟨10, _⟩ => ⟨S1x1x256, .f32⟩
  | .local _ .vmem, ⟨11, _⟩ => ⟨S1x1x256, .f32⟩
  | .local _ .vmem, ⟨12, _⟩ => ⟨S1x256x4, .bf16⟩
  | .local _ .vmem, ⟨13, _⟩ => ⟨S1x256x4, .bf16⟩
  | .local _ .vmem, ⟨14, _⟩ => ⟨S1x1x4, .f32⟩
  | .local _ .vmem, ⟨15, _⟩ => ⟨S1x1x4, .f32⟩
  | .local _ .vmem, ⟨16, _⟩ => ⟨S1x2048x4, .f32⟩
  | .local _ .vmem, ⟨17, _⟩ => ⟨S1x2048x4, .f32⟩
  | _, _ => ⟨S64x2048x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x4 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2048x4 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  concatenates_S64x2_S64x2_S64x4_d1 : Shape.Concatenates [S64x2, S64x2] S64x4 1
  shapeCasts_S64x4_S64x1x4 : S64x4.ShapeCasts S64x1x4
  shapeCasts_S64x256_S64x1x256 : S64x256.ShapeCasts S64x1x256
  bitsLt_bf16_f32 : FTy.bits .bf16 < FTy.bits .f32
  inb_S1x2048x2_S1x2048x2_0_0_0 : ∀ a, (![0, 0, 0] : Fin 3 → Nat) a + S1x2048x2.size a ≤ S1x2048x2.size a
  h_S1x2048x2 : 0 < S1x2048x2.numel
  shapeCasts_S1x2048x2_S2048x2 : S1x2048x2.ShapeCasts S2048x2
  inb_S1x1x4_S1x1x4_0_0_0 : ∀ a, (![0, 0, 0] : Fin 3 → Nat) a + S1x1x4.size a ≤ S1x1x4.size a
  h_S1x1x4 : 0 < S1x1x4.numel
  shapeCasts_S1x1x4_S1x4 : S1x1x4.ShapeCasts S1x4
  slices_S2048x2_o0_0_S2048x1 : S2048x2.Slices ![0, 0] S2048x1
  slices_S1x4_o0_0_S1x1 : S1x4.Slices ![0, 0] S1x1
  broadcasts_S1x1_S2048x1 : S1x1.Broadcasts S2048x1
  slices_S2048x2_o0_1_S2048x1 : S2048x2.Slices ![0, 1] S2048x1
  slices_S1x4_o0_1_S1x1 : S1x4.Slices ![0, 1] S1x1
  slices_S1x4_o0_2_S1x1 : S1x4.Slices ![0, 2] S1x1
  slices_S1x4_o0_3_S1x1 : S1x4.Slices ![0, 3] S1x1
  concatenates_S2048x1_S2048x1_S2048x2_d1 : Shape.Concatenates [S2048x1, S2048x1] S2048x2 1
  inb_S1x2x256_S1x2x256_0_0_0 : ∀ a, (![0, 0, 0] : Fin 3 → Nat) a + S1x2x256.size a ≤ S1x2x256.size a
  h_S1x2x256 : 0 < S1x2x256.numel
  shapeCasts_S1x2x256_S2x256 : S1x2x256.ShapeCasts S2x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  broadcasts_S1x256_S2048x256 : S1x256.Broadcasts S2048x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S1x256x4_S1x256x4_0_0_0 : ∀ a, (![0, 0, 0] : Fin 3 → Nat) a + S1x256x4.size a ≤ S1x256x4.size a
  h_S1x256x4 : 0 < S1x256x4.numel
  shapeCasts_S1x256x4_S256x4 : S1x256x4.ShapeCasts S256x4
  broadcasts_S1x4_S2048x4 : S1x4.Broadcasts S2048x4
  inb_S1x2048x4_S1x2048x4_0_0_0 : ∀ a, (![0, 0, 0] : Fin 3 → Nat) a + S1x2048x4.size a ≤ S1x2048x4.size a
  h_S1x2048x4 : 0 < S1x2048x4.numel
  shapeCasts_S1x2048x4_S2048x4 : S1x2048x4.ShapeCasts S2048x4
  shapeCasts_S2048x4_S1x2048x4 : S2048x4.ShapeCasts S1x2048x4
  dot_S2048x2_S2x256_S2048x256_1_0_0_1_n_n_wf : DotDims.WF S2048x2 S2x256 S2048x256 [1] [0] [0] [1] [] []
  dot_S2048x256_S256x256_S2048x256_1_0_0_1_n_n_wf : DotDims.WF S2048x256 S256x256 S2048x256 [1] [0] [0] [1] [] []
  dot_S2048x256_S256x4_S2048x4_1_0_0_1_n_n_wf : DotDims.WF S2048x256 S256x4 S2048x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x2.size a ≤ S64x2048x2.size a
  hwx0_0 : ∀ i : grid0.Coords, EltTy.bits .f32 = 32 ∨ (Rect.block (s := S64x2048x2) S1x2048x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4.size a ≤ S64x1x4.size a
  hwx0_1 : ∀ i : grid0.Coords, EltTy.bits .f32 = 32 ∨ (Rect.block (s := S64x1x4) S1x1x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2x256.size a ≤ S64x2x256.size a
  hwx0_2 : ∀ i : grid0.Coords, EltTy.bits .bf16 = 32 ∨ (Rect.block (s := S64x2x256) S1x2x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256.size a ≤ S64x1x256.size a
  hwx0_3 : ∀ i : grid0.Coords, EltTy.bits .f32 = 32 ∨ (Rect.block (s := S64x1x256) S1x1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x256.size a ≤ S64x256x256.size a
  hwx0_4 : ∀ i : grid0.Coords, EltTy.bits .bf16 = 32 ∨ (Rect.block (s := S64x256x256) S1x256x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x256.size a ≤ S64x1x256.size a
  hwx0_5 : ∀ i : grid0.Coords, EltTy.bits .f32 = 32 ∨ (Rect.block (s := S64x1x256) S1x1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x4.size a ≤ S64x256x4.size a
  hwx0_6 : ∀ i : grid0.Coords, EltTy.bits .bf16 = 32 ∨ (Rect.block (s := S64x256x4) S1x256x4.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x4.size a ≤ S64x1x4.size a
  hwx0_7 : ∀ i : grid0.Coords, EltTy.bits .f32 = 32 ∨ (Rect.block (s := S64x1x4) S1x1x4.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x2048x4.size a ≤ S64x2048x4.size a
  hwx0_8 : ∀ i : grid0.Coords, EltTy.bits .f32 = 32 ∨ (Rect.block (s := S64x2048x4) S1x2048x4.size (cc0_transform_8 i) (hinb0_8 i)).WholeWords (EltTy.packing .f32)

variable [Facts₀]

def dot_S2048x2_S2x256_S2048x256_1_0_0_1_n_n : DotDims S2048x2 S2x256 S2048x256 where
  lhsContracting := [1]
  rhsContracting := [0]
  lhsNonContracting := [0]
  rhsNonContracting := [1]
  lhsBatch := []
  rhsBatch := []
  wf := dot_S2048x2_S2x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x4_S2048x4_1_0_0_1_n_n : DotDims S2048x256 S256x4 S2048x4 where
  lhsContracting := [1]
  rhsContracting := [0]
  lhsNonContracting := [0]
  rhsNonContracting := [1]
  lhsBatch := []
  rhsBatch := []
  wf := dot_S2048x256_S256x4_S2048x4_1_0_0_1_n_n_wf

abbrev win0_0 : Pipeline.Window sig grid0 :=
  Pipeline.Window.ofSpec (Memref.whole main_arg0) S1x2048x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x2x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x256x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x256x4.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x1x4.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x2048x4.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S64x2048x2 : Shape := ⟨3, ![64, 2048, 2]⟩
abbrev S64x2 : Shape := ⟨2, ![64, 2]⟩
abbrev S64x2x256 : Shape := ⟨3, ![64, 2, 256]⟩
abbrev S64x256 : Shape := ⟨2, ![64, 256]⟩
abbrev S64x256x256 : Shape := ⟨3, ![64, 256, 256]⟩
abbrev S64x256x4 : Shape := ⟨3, ![64, 256, 4]⟩
abbrev S64x4 : Shape := ⟨2, ![64, 4]⟩
abbrev S2 : Shape := ⟨1, ![2]⟩
abbrev S64x1x2 : Shape := ⟨3, ![64, 1, 2]⟩
abbrev S1x2 : Shape := ⟨2, ![1, 2]⟩
abbrev S64x1x1 : Shape := ⟨3, ![64, 1, 1]⟩
abbrev S64x1 : Shape := ⟨2, ![64, 1]⟩
abbrev S64x2048x1 : Shape := ⟨3, ![64, 2048, 1]⟩
abbrev S64x2048 : Shape := ⟨2, ![64, 2048]⟩
abbrev S_ : Shape := ⟨0, ![]⟩
abbrev S64x2048x256 : Shape := ⟨3, ![64, 2048, 256]⟩
abbrev S64x1x256 : Shape := ⟨3, ![64, 1, 256]⟩
abbrev S64x2048x4 : Shape := ⟨3, ![64, 2048, 4]⟩
abbrev S64x1x4 : Shape := ⟨3, ![64, 1, 4]⟩

abbrev nBuf : Space → Nat
  | .hbm => 59
  | .vmem => 0
  | .smem => 0
  | _ => 0

abbrev bufTy : (tb : Table) → Fin (tcTables nBuf tb) → BufTy
  | .hbm, ⟨0, _⟩ => ⟨S64x2048x2, .f32⟩
  | .hbm, ⟨1, _⟩ => ⟨S64x2, .f32⟩
  | .hbm, ⟨2, _⟩ => ⟨S64x2, .f32⟩
  | .hbm, ⟨3, _⟩ => ⟨S64x2x256, .f32⟩
  | .hbm, ⟨4, _⟩ => ⟨S64x256, .f32⟩
  | .hbm, ⟨5, _⟩ => ⟨S64x256x256, .f32⟩
  | .hbm, ⟨6, _⟩ => ⟨S64x256, .f32⟩
  | .hbm, ⟨7, _⟩ => ⟨S64x256x4, .f32⟩
  | .hbm, ⟨8, _⟩ => ⟨S64x4, .f32⟩
  | .hbm, ⟨9, _⟩ => ⟨S2, .f32⟩
  | .hbm, ⟨10, _⟩ => ⟨S64x1x2, .f32⟩
  | .hbm, ⟨11, _⟩ => ⟨S64x2048x2, .f32⟩
  | .hbm, ⟨12, _⟩ => ⟨S64x2048x2, .f32⟩
  | .hbm, ⟨13, _⟩ => ⟨S1x2, .f32⟩
  | .hbm, ⟨14, _⟩ => ⟨S64x2, .f32⟩
  | .hbm, ⟨15, _⟩ => ⟨S64x2, .f32⟩
  | .hbm, ⟨16, _⟩ => ⟨S64x1x2, .f32⟩
  | .hbm, ⟨17, _⟩ => ⟨S64x1x1, .f32⟩
  | .hbm, ⟨18, _⟩ => ⟨S64x1, .f32⟩
  | .hbm, ⟨19, _⟩ => ⟨S64x1x1, .f32⟩
  | .hbm, ⟨20, _⟩ => ⟨S64x1, .f32⟩
  | .hbm, ⟨21, _⟩ => ⟨S64x2048x1, .f32⟩
  | .hbm, ⟨22, _⟩ => ⟨S64x2048, .f32⟩
  | .hbm, ⟨23, _⟩ => ⟨S64x2048x1, .f32⟩
  | .hbm, ⟨24, _⟩ => ⟨S64x2048, .f32⟩
  | .hbm, ⟨25, _⟩ => ⟨S64x2048, .f32⟩
  | .hbm, ⟨26, _⟩ => ⟨S64x2048, .f32⟩
  | .hbm, ⟨27, _⟩ => ⟨S64x2048, .f32⟩
  | .hbm, ⟨28, _⟩ => ⟨S64x2048, .f32⟩
  | .hbm, ⟨29, _⟩ => ⟨S64x2048, .f32⟩
  | .hbm, ⟨30, _⟩ => ⟨S64x2048, .f32⟩
  | .hbm, ⟨31, _⟩ => ⟨S64x2048, .f32⟩
  | .hbm, ⟨32, _⟩ => ⟨S64x2048, .f32⟩
  | .hbm, ⟨33, _⟩ => ⟨S64x2048, .f32⟩
  | .hbm, ⟨34, _⟩ => ⟨S64x2048, .f32⟩
  | .hbm, ⟨35, _⟩ => ⟨S64x2048x1, .f32⟩
  | .hbm, ⟨36, _⟩ => ⟨S64x2048x1, .f32⟩
  | .hbm, ⟨37, _⟩ => ⟨S64x2048x2, .f32⟩
  | .hbm, ⟨38, _⟩ => ⟨S_, .f32⟩
  | .hbm, ⟨39, _⟩ => ⟨S64x2048x2, .f32⟩
  | .hbm, ⟨40, _⟩ => ⟨S64x2048x2, .f32⟩
  | .hbm, ⟨41, _⟩ => ⟨S64x2048x256, .f32⟩
  | .hbm, ⟨42, _⟩ => ⟨S64x1x256, .f32⟩
  | .hbm, ⟨43, _⟩ => ⟨S64x2048x256, .f32⟩
  | .hbm, ⟨44, _⟩ => ⟨S64x2048x256, .f32⟩
  | .hbm, ⟨45, _⟩ => ⟨S_, .f32⟩
  | .hbm, ⟨46, _⟩ => ⟨S64x2048x256, .f32⟩
  | .hbm, ⟨47, _⟩ => ⟨S64x2048x256, .f32⟩
  | .hbm, ⟨48, _⟩ => ⟨S64x2048x256, .f32⟩
  | .hbm, ⟨49, _⟩ => ⟨S64x1x256, .f32⟩
  | .hbm, ⟨50, _⟩ => ⟨S64x2048x256, .f32⟩
  | .hbm, ⟨51, _⟩ => ⟨S64x2048x256, .f32⟩
  | .hbm, ⟨52, _⟩ => ⟨S_, .f32⟩
  | .hbm, ⟨53, _⟩ => ⟨S64x2048x256, .f32⟩
  | .hbm, ⟨54, _⟩ => ⟨S64x2048x256, .f32⟩
  | .hbm, ⟨55, _⟩ => ⟨S64x2048x4, .f32⟩
  | .hbm, ⟨56, _⟩ => ⟨S64x1x4, .f32⟩
  | .hbm, ⟨57, _⟩ => ⟨S64x2048x4, .f32⟩
  | .hbm, ⟨58, _⟩ => ⟨S64x2048x4, .f32⟩
  | _, _ => ⟨S64x2048x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_0 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_1 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_2 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩

abbrev nD : Nat := 1
abbrev τ : Topo := Topo.v7x

variable {F : FTy → Type} [FloatOps F]

class Facts₀ : Prop where
  bcast_S64x2_S64x1x2_0_2 : S64x2.BroadcastsInDim S64x1x2 (![0, 2] : Fin 2 → Fin S64x1x2.rank)
  bcast_S64x1x2_S64x2048x2_0_1_2 : S64x1x2.BroadcastsInDim S64x2048x2 (![0, 1, 2] : Fin 3 → Fin S64x2048x2.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  slices_S64x1x2_S64x1x1_0_0_0 : S64x1x2.Slices ![0, 0, 0] S64x1x1
  shapeCasts_S64x1x1_S64x1 : S64x1x1.ShapeCasts S64x1
  slices_S64x1x2_S64x1x1_0_0_1 : S64x1x2.Slices ![0, 0, 1] S64x1x1
  slices_S64x2048x2_S64x2048x1_0_0_0 : S64x2048x2.Slices ![0, 0, 0] S64x2048x1
  shapeCasts_S64x2048x1_S64x2048 : S64x2048x1.ShapeCasts S64x2048
  slices_S64x2048x2_S64x2048x1_0_0_1 : S64x2048x2.Slices ![0, 0, 1] S64x2048x1
  bcast_S64x1_S64x2048_0_1 : S64x1.BroadcastsInDim S64x2048 (![0, 1] : Fin 2 → Fin S64x2048.rank)
  bcast_S64x2048_S64x2048x1_0_1 : S64x2048.BroadcastsInDim S64x2048x1 (![0, 1] : Fin 2 → Fin S64x2048x1.rank)
  concatenates_S64x2048x1_S64x2048x1_S64x2048x2_d2 : Shape.Concatenates [S64x2048x1, S64x2048x1] S64x2048x2 2
  bcast_S_S64x2048x2 : S_.BroadcastsInDim S64x2048x2 (![] : Fin 0 → Fin S64x2048x2.rank)
  bcast_S64x256_S64x1x256_0_2 : S64x256.BroadcastsInDim S64x1x256 (![0, 2] : Fin 2 → Fin S64x1x256.rank)
  bcast_S64x1x256_S64x2048x256_0_1_2 : S64x1x256.BroadcastsInDim S64x2048x256 (![0, 1, 2] : Fin 3 → Fin S64x2048x256.rank)
  bcast_S_S64x2048x256 : S_.BroadcastsInDim S64x2048x256 (![] : Fin 0 → Fin S64x2048x256.rank)
  bcast_S64x4_S64x1x4_0_2 : S64x4.BroadcastsInDim S64x1x4 (![0, 2] : Fin 2 → Fin S64x1x4.rank)
  bcast_S64x1x4_S64x2048x4_0_1_2 : S64x1x4.BroadcastsInDim S64x2048x4 (![0, 1, 2] : Fin 3 → Fin S64x2048x4.rank)
  dot_S64x2048x2_S64x2x256_S64x2048x256_2_1_1_2_0_0_wf : DotDims.WF S64x2048x2 S64x2x256 S64x2048x256 [2] [1] [1] [2] [0] [0]
  dot_S64x2048x256_S64x256x256_S64x2048x256_2_1_1_2_0_0_wf : DotDims.WF S64x2048x256 S64x256x256 S64x2048x256 [2] [1] [1] [2] [0] [0]
  dot_S64x2048x256_S64x256x4_S64x2048x4_2_1_1_2_0_0_wf : DotDims.WF S64x2048x256 S64x256x4 S64x2048x4 [2] [1] [1] [2] [0] [0]

variable [Facts₀]

def dot_S64x2048x2_S64x2x256_S64x2048x256_2_1_1_2_0_0 : DotDims S64x2048x2 S64x2x256 S64x2048x256 where
  lhsContracting := [2]
  rhsContracting := [1]
  lhsNonContracting := [1]
  rhsNonContracting := [2]
  lhsBatch := [0]
  rhsBatch := [0]
  wf := dot_S64x2048x2_S64x2x256_S64x2048x256_2_1_1_2_0_0_wf
def dot_S64x2048x256_S64x256x256_S64x2048x256_2_1_1_2_0_0 : DotDims S64x2048x256 S64x256x256 S64x2048x256 where
  lhsContracting := [2]
  rhsContracting := [1]
  lhsNonContracting := [1]
  rhsNonContracting := [2]
  lhsBatch := [0]
  rhsBatch := [0]
  wf := dot_S64x2048x256_S64x256x256_S64x2048x256_2_1_1_2_0_0_wf
def dot_S64x2048x256_S64x256x4_S64x2048x4_2_1_1_2_0_0 : DotDims S64x2048x256 S64x256x4 S64x2048x4 where
  lhsContracting := [2]
  rhsContracting := [1]
  lhsNonContracting := [1]
  rhsNonContracting := [2]
  lhsBatch := [0]
  rhsBatch := [0]
  wf := dot_S64x2048x256_S64x256x4_S64x2048x4_2_1_1_2_0_0_wf

class Facts : Prop extends Facts₀ where

variable [Facts]
-- ==== Proof.Spec.lean ====
/-
  The specification both programs are read against, index by index over the extended reals.

  For a field `e`, a query point `p` and the arrays' entries: the point is moved into the field's frame,
  `d = q(e,p,·) − pos(e,·)`, then turned by the conjugate of the unit complex number `ori(e,·)`:
  `loc₀ = o₀·d₀ + o₁·d₁`, `loc₁ = o₀·d₁ − o₁·d₀` (`rot`). Three dense layers follow, each a sum over the
  contracted axis plus a bias (`dense`), the first two clipped below at zero (`relu`):
  `h0 = relu (loc · W0 + b0)`, `h1 = relu (h0 · W1 + b1)`, `out = h1 · W2 + b2`.
  Sums are `Finset` sums, so no order or grouping of the additions is recorded.
-/
import Idealize.ShloMosaic.PureOps.Ideal
import Idealize.ShloMosaic.PureOps.Ideal.Laws
import Idealize.ShloMosaic.Lib.ValueIdx

noncomputable section

namespace Cert.FieldSpec

open Idealize.ShloMosaic Idealize.ShloMosaic.ValueIdx

/-- A rank-3 array of extended reals with literal extents. -/
abbrev Arr3 (a b c : ℕ) : Type := (⟨3, ![a, b, c]⟩ : Shape).Idx → EReal
/-- A rank-2 array of extended reals with literal extents. -/
abbrev Arr2 (a b : ℕ) : Type := (⟨2, ![a, b]⟩ : Shape).Idx → EReal

/-- The product of the conjugate of `o₀ + i·o₁` with `d₀ + i·d₁`: component 0 is the real part, component 1 the
    imaginary part. -/
def rot (o0 o1 d0 d1 : EReal) (k : Fin 2) : EReal :=
  if k.val = 0 then o0 * d0 + o1 * d1 else o0 * d1 - o1 * d0

/-- One output of a dense layer: the contraction of `x` with a column `w` of the weights, plus the bias. -/
def dense (K : ℕ) (x w : Fin K → EReal) (b : EReal) : EReal := (∑ k : Fin K, x k * w k) + b

/-- Clipping below at zero. -/
def relu (x : EReal) : EReal := max x 0

variable (q : Arr3 64 2048 2) (pos ori : Arr2 64 2) (W0 : Arr3 64 2 256) (b0 : Arr2 64 256)
  (W1 : Arr3 64 256 256) (b1 : Arr2 64 256) (W2 : Arr3 64 256 4) (b2 : Arr2 64 4)

/-- The query point `p` in field `e`'s frame. -/
def loc (e : Fin 64) (p : Fin 2048) (k : Fin 2) : EReal :=
  rot (ori (ix2 e (0 : Fin 2))) (ori (ix2 e (1 : Fin 2)))
    (q (ix3 e p (0 : Fin 2)) - pos (ix2 e (0 : Fin 2))) (q (ix3 e p (1 : Fin 2)) - pos (ix2 e (1 : Fin 2))) k

/-- The first hidden layer. -/
def h0 (e : Fin 64) (p : Fin 2048) (j : Fin 256) : EReal :=
  relu (dense 2 (loc q pos ori e p) (fun k => W0 (ix3 e k j)) (b0 (ix2 e j)))

/-- The second hidden layer. -/
def h1 (e : Fin 64) (p : Fin 2048) (j : Fin 256) : EReal :=
  relu (dense 256 (h0 q pos ori W0 b0 e p) (fun k => W1 (ix3 e k j)) (b1 (ix2 e j)))

/-- The field's output at a point, by coordinates. -/
def outAt (e : Fin 64) (p : Fin 2048) (j : Fin 4) : EReal :=
  dense 256 (h1 q pos ori W0 b0 W1 b1 e p) (fun k => W2 (ix3 e k j)) (b2 (ix2 e j))

/-- The whole result array. -/
def out : Arr3 64 2048 4 := fun i => outAt q pos ori W0 b0 W1 b1 W2 b2 (i 0) (i 1) (i 2)

theorem out_ix3 (e : Fin 64) (p : Fin 2048) (j : Fin 4) :
    out q pos ori W0 b0 W1 b1 W2 b2 (ix3 e p j) = outAt q pos ori W0 b0 W1 b1 W2 b2 e p j := rfl

/-! ## The literals the two programs spell, and the two spellings of the rotation -/

/-- The pattern of `1.0` denotes `1`. -/
theorem ofBits_one : Ideal.ofBits .f32 0x3F800000#32 = 1 := IdealRules.sign_bit.ideal_onePat .f32

/-- The pattern of `-1.0` denotes `-1`. -/
theorem ofBits_negOne : Ideal.ofBits .f32 0xBF800000#32 = -1 := IdealRules.sign_bit.ideal_negOnePat .f32

/-- Dividing by one changes no extended real, the infinities included. -/
theorem div_one (x : EReal) : Ideal.div x 1 = x := by
  have h := Ideal.div_coe (y := 1) one_ne_zero x
  rw [EReal.coe_one] at h
  rw [h]; norm_num

/-- The rotation's real part, as a product scaled by one. -/
theorem rot_scaled_0 (o0 o1 d0 d1 : EReal) : (o0 * d0 + o1 * d1) * 1 = rot o0 o1 d0 d1 0 := by
  simp [rot]

/-- The rotation's imaginary part, as a product scaled by one. -/
theorem rot_scaled_1 (o0 o1 d0 d1 : EReal) : (o0 * d1 - o1 * d0) * 1 = rot o0 o1 d0 d1 1 := by
  simp [rot]

/-- The rotation's real part, from the conjugate `(o₀·1, o₁·(−1))` by the complex product's formula and a
    division by one: subtracting `(−o₁)·d₁` adds `o₁·d₁`. -/
theorem rot_conj_0 (o0 o1 d0 d1 : EReal) :
    Ideal.div ((o0 * 1) * d0 - (o1 * (-1)) * d1) 1 = rot o0 o1 d0 d1 0 := by
  rw [div_one, mul_one, mul_neg, mul_one, neg_mul, sub_eq_add_neg, neg_neg]
  simp [rot]

/-- The rotation's imaginary part, likewise: adding `d₀·(−o₁)` subtracts `o₁·d₀`. -/
theorem rot_conj_1 (o0 o1 d0 d1 : EReal) :
    Ideal.div ((o0 * 1) * d1 + d0 * (o1 * (-1))) 1 = rot o0 o1 d0 d1 1 := by
  rw [div_one, mul_one, mul_neg, mul_one, mul_neg, ← sub_eq_add_neg, mul_comm d0 o1]
  simp [rot]

end Cert.FieldSpec

end
-- ==== Proof.KernelPayload.lean ====
/-
  The kernel body's two pure values read at an index, over the extended reals.

  The first value is the first hidden layer of one field's block of points: the block's points are translated by
  the field's position and turned by the conjugate of its orientation (the four numbers of the packed row
  `v2 = (px, py, o₀, o₁)`), contracted with the 2 × 256 weights, the bias row added, clipped below at zero.
  The second value is the remaining two layers: a 256-term contraction, bias and clip, then a 256-term contraction
  and bias. A change of float format is the identity here, and a matrix product into a zero accumulator is the
  plain sum of products.
-/
import proofs.«123930_g18605798326295_fold_wed_c4_331_5_alg».proof.Proof.Gen.KernelIdeal.Skeleton
import proofs.«123930_g18605798326295_fold_wed_c4_331_5_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.FieldSpec

/-! ## The three matrix products at an index -/

/-- The first layer's product, left operand: its row is the output's row … -/
theorem lhs_l1_0 (i : S2048x256.Idx) (q : (dot_S2048x2_S2x256_S2048x256_1_0_0_1_n_n).contr.Idx) : ((dot_S2048x2_S2x256_S2048x256_1_0_0_1_n_n).lhsIdx i q 0).val = (i 0).val := by
  unfold DotDims.lhsIdx
  rw [dif_neg (show ¬(0 : Fin S2048x2.rank) ∈ (dot_S2048x2_S2x256_S2048x256_1_0_0_1_n_n).lhsBatch by decide),
    dif_pos (show (0 : Fin S2048x2.rank) ∈ (dot_S2048x2_S2x256_S2048x256_1_0_0_1_n_n).lhsNonContracting by decide)]
  rfl
/-- … and its column is the contraction position. -/
theorem lhs_l1_1 (i : S2048x256.Idx) (q : (dot_S2048x2_S2x256_S2048x256_1_0_0_1_n_n).contr.Idx) : ((dot_S2048x2_S2x256_S2048x256_1_0_0_1_n_n).lhsIdx i q 1).val = (q ⟨0, by decide⟩).val :=
  (dot_S2048x2_S2x256_S2048x256_1_0_0_1_n_n).lhsIdx_val_of_single rfl i q
/-- The first layer's product, right operand: its row is the contraction position … -/
theorem rhs_l1_0 (i : S2048x256.Idx) (q : (dot_S2048x2_S2x256_S2048x256_1_0_0_1_n_n).contr.Idx) : ((dot_S2048x2_S2x256_S2048x256_1_0_0_1_n_n).rhsIdx i q 0).val = (q ⟨0, by decide⟩).val :=
  (dot_S2048x2_S2x256_S2048x256_1_0_0_1_n_n).rhsIdx_val_of_single rfl i q
/-- … and its column is the output's column. -/
theorem rhs_l1_1 (i : S2048x256.Idx) (q : (dot_S2048x2_S2x256_S2048x256_1_0_0_1_n_n).contr.Idx) : ((dot_S2048x2_S2x256_S2048x256_1_0_0_1_n_n).rhsIdx i q 1).val = (i 1).val := by
  unfold DotDims.rhsIdx
  rw [dif_neg (show ¬(1 : Fin S2x256.rank) ∈ (dot_S2048x2_S2x256_S2048x256_1_0_0_1_n_n).rhsBatch by decide),
    dif_pos (show (1 : Fin S2x256.rank) ∈ (dot_S2048x2_S2x256_S2048x256_1_0_0_1_n_n).rhsNonContracting by decide)]
  rfl

/-- The first layer's product into the zero accumulator, at row `p` and column `j`: the sum over the contracted axis
    of the products of the left operand's row `p` with the right operand's column `j`. -/
theorem matmul_l1_apply (x : FVec Ideal S2048x2 .bf16) (w : FVec Ideal S2x256 .bf16) (p : Fin 2048) (j : Fin 256) :
    matmul dot_S2048x2_S2x256_S2048x256_1_0_0_1_n_n none x w (constant S2048x256 .f32 0x00000000#32) (ix2 p j)
      = ∑ k : Fin 2, x (ix2 p k) * w (ix2 k j) := by
  simp only [matmul]
  rw [Ideal.matmul_constant_zero_apply, ← Equiv.sum_comp (ValueIdx.contrEquiv1 dot_S2048x2_S2x256_S2048x256_1_0_0_1_n_n 2 rfl rfl).symm]
  refine Finset.sum_congr rfl fun k _ => ?_
  have hk := ValueIdx.contrEquiv1_symm_val dot_S2048x2_S2x256_S2048x256_1_0_0_1_n_n 2 rfl rfl k
  have el : (dot_S2048x2_S2x256_S2048x256_1_0_0_1_n_n).lhsIdx (ix2 p j) ((ValueIdx.contrEquiv1 dot_S2048x2_S2x256_S2048x256_1_0_0_1_n_n 2 rfl rfl).symm k) = ix2 p k :=
    funext fun a => Fin.ext (by
      match a with
      | ⟨0, _⟩ => exact lhs_l1_0 _ _
      | ⟨1, _⟩ => exact (lhs_l1_1 _ _).trans hk)
  have er : (dot_S2048x2_S2x256_S2048x256_1_0_0_1_n_n).rhsIdx (ix2 p j) ((ValueIdx.contrEquiv1 dot_S2048x2_S2x256_S2048x256_1_0_0_1_n_n 2 rfl rfl).symm k) = ix2 k j :=
    funext fun a => Fin.ext (by
      match a with
      | ⟨0, _⟩ => exact (rhs_l1_0 _ _).trans hk
      | ⟨1, _⟩ => exact rhs_l1_1 _ _)
  rw [el, er]

/-- The second layer's product, left operand: its row is the output's row … -/
theorem lhs_l2_0 (i : S2048x256.Idx) (q : (dot_S2048x256_S256x256_S2048x256_1_0_0_1_n_n).contr.Idx) : ((dot_S2048x256_S256x256_S2048x256_1_0_0_1_n_n).lhsIdx i q 0).val = (i 0).val := by
  unfold DotDims.lhsIdx
  rw [dif_neg (show ¬(0 : Fin S2048x256.rank) ∈ (dot_S2048x256_S256x256_S2048x256_1_0_0_1_n_n).lhsBatch by decide),
    dif_pos (show (0 : Fin S2048x256.rank) ∈ (dot_S2048x256_S256x256_S2048x256_1_0_0_1_n_n).lhsNonContracting by decide)]
  rfl
/-- … and its column is the contraction position. -/
theorem lhs_l2_1 (i : S2048x256.Idx) (q : (dot_S2048x256_S256x256_S2048x256_1_0_0_1_n_n).contr.Idx) : ((dot_S2048x256_S256x256_S2048x256_1_0_0_1_n_n).lhsIdx i q 1).val = (q ⟨0, by decide⟩).val :=
  (dot_S2048x256_S256x256_S2048x256_1_0_0_1_n_n).lhsIdx_val_of_single rfl i q
/-- The second layer's product, right operand: its row is the contraction position … -/
theorem rhs_l2_0 (i : S2048x256.Idx) (q : (dot_S2048x256_S256x256_S2048x256_1_0_0_1_n_n).contr.Idx) : ((dot_S2048x256_S256x256_S2048x256_1_0_0_1_n_n).rhsIdx i q 0).val = (q ⟨0, by decide⟩).val :=
  (dot_S2048x256_S256x256_S2048x256_1_0_0_1_n_n).rhsIdx_val_of_single rfl i q
/-- … and its column is the output's column. -/
theorem rhs_l2_1 (i : S2048x256.Idx) (q : (dot_S2048x256_S256x256_S2048x256_1_0_0_1_n_n).contr.Idx) : ((dot_S2048x256_S256x256_S2048x256_1_0_0_1_n_n).rhsIdx i q 1).val = (i 1).val := by
  unfold DotDims.rhsIdx
  rw [dif_neg (show ¬(1 : Fin S256x256.rank) ∈ (dot_S2048x256_S256x256_S2048x256_1_0_0_1_n_n).rhsBatch by decide),
    dif_pos (show (1 : Fin S256x256.rank) ∈ (dot_S2048x256_S256x256_S2048x256_1_0_0_1_n_n).rhsNonContracting by decide)]
  rfl

/-- The second layer's product into the zero accumulator, at row `p` and column `j`: the sum over the contracted axis
    of the products of the left operand's row `p` with the right operand's column `j`. -/
theorem matmul_l2_apply (x : FVec Ideal S2048x256 .bf16) (w : FVec Ideal S256x256 .bf16) (p : Fin 2048) (j : Fin 256) :
    matmul dot_S2048x256_S256x256_S2048x256_1_0_0_1_n_n none x w (constant S2048x256 .f32 0x00000000#32) (ix2 p j)
      = ∑ k : Fin 256, x (ix2 p k) * w (ix2 k j) := by
  simp only [matmul]
  rw [Ideal.matmul_constant_zero_apply, ← Equiv.sum_comp (ValueIdx.contrEquiv1 dot_S2048x256_S256x256_S2048x256_1_0_0_1_n_n 256 rfl rfl).symm]
  refine Finset.sum_congr rfl fun k _ => ?_
  have hk := ValueIdx.contrEquiv1_symm_val dot_S2048x256_S256x256_S2048x256_1_0_0_1_n_n 256 rfl rfl k
  have el : (dot_S2048x256_S256x256_S2048x256_1_0_0_1_n_n).lhsIdx (ix2 p j) ((ValueIdx.contrEquiv1 dot_S2048x256_S256x256_S2048x256_1_0_0_1_n_n 256 rfl rfl).symm k) = ix2 p k :=
    funext fun a => Fin.ext (by
      match a with
      | ⟨0, _⟩ => exact lhs_l2_0 _ _
      | ⟨1, _⟩ => exact (lhs_l2_1 _ _).trans hk)
  have er : (dot_S2048x256_S256x256_S2048x256_1_0_0_1_n_n).rhsIdx (ix2 p j) ((ValueIdx.contrEquiv1 dot_S2048x256_S256x256_S2048x256_1_0_0_1_n_n 256 rfl rfl).symm k) = ix2 k j :=
    funext fun a => Fin.ext (by
      match a with
      | ⟨0, _⟩ => exact (rhs_l2_0 _ _).trans hk
      | ⟨1, _⟩ => exact rhs_l2_1 _ _)
  rw [el, er]

/-- The third layer's product, left operand: its row is the output's row … -/
theorem lhs_l3_0 (i : S2048x4.Idx) (q : (dot_S2048x256_S256x4_S2048x4_1_0_0_1_n_n).contr.Idx) : ((dot_S2048x256_S256x4_S2048x4_1_0_0_1_n_n).lhsIdx i q 0).val = (i 0).val := by
  unfold DotDims.lhsIdx
  rw [dif_neg (show ¬(0 : Fin S2048x256.rank) ∈ (dot_S2048x256_S256x4_S2048x4_1_0_0_1_n_n).lhsBatch by decide),
    dif_pos (show (0 : Fin S2048x256.rank) ∈ (dot_S2048x256_S256x4_S2048x4_1_0_0_1_n_n).lhsNonContracting by decide)]
  rfl
/-- … and its column is the contraction position. -/
theorem lhs_l3_1 (i : S2048x4.Idx) (q : (dot_S2048x256_S256x4_S2048x4_1_0_0_1_n_n).contr.Idx) : ((dot_S2048x256_S256x4_S2048x4_1_0_0_1_n_n).lhsIdx i q 1).val = (q ⟨0, by decide⟩).val :=
  (dot_S2048x256_S256x4_S2048x4_1_0_0_1_n_n).lhsIdx_val_of_single rfl i q
/-- The third layer's product, right operand: its row is the contraction position … -/
theorem rhs_l3_0 (i : S2048x4.Idx) (q : (dot_S2048x256_S256x4_S2048x4_1_0_0_1_n_n).contr.Idx) : ((dot_S2048x256_S256x4_S2048x4_1_0_0_1_n_n).rhsIdx i q 0).val = (q ⟨0, by decide⟩).val :=
  (dot_S2048x256_S256x4_S2048x4_1_0_0_1_n_n).rhsIdx_val_of_single rfl i q
/-- … and its column is the output's column. -/
theorem rhs_l3_1 (i : S2048x4.Idx) (q : (dot_S2048x256_S256x4_S2048x4_1_0_0_1_n_n).contr.Idx) : ((dot_S2048x256_S256x4_S2048x4_1_0_0_1_n_n).rhsIdx i q 1).val = (i 1).val := by
  unfold DotDims.rhsIdx
  rw [dif_neg (show ¬(1 : Fin S256x4.rank) ∈ (dot_S2048x256_S256x4_S2048x4_1_0_0_1_n_n).rhsBatch by decide),
    dif_pos (show (1 : Fin S256x4.rank) ∈ (dot_S2048x256_S256x4_S2048x4_1_0_0_1_n_n).rhsNonContracting by decide)]
  rfl

/-- The third layer's product into the zero accumulator, at row `p` and column `j`: the sum over the contracted axis
    of the products of the left operand's row `p` with the right operand's column `j`. -/
theorem matmul_l3_apply (x : FVec Ideal S2048x256 .bf16) (w : FVec Ideal S256x4 .bf16) (p : Fin 2048) (j : Fin 4) :
    matmul dot_S2048x256_S256x4_S2048x4_1_0_0_1_n_n none x w (constant S2048x4 .f32 0x00000000#32) (ix2 p j)
      = ∑ k : Fin 256, x (ix2 p k) * w (ix2 k j) := by
  simp only [matmul]
  rw [Ideal.matmul_constant_zero_apply, ← Equiv.sum_comp (ValueIdx.contrEquiv1 dot_S2048x256_S256x4_S2048x4_1_0_0_1_n_n 256 rfl rfl).symm]
  refine Finset.sum_congr rfl fun k _ => ?_
  have hk := ValueIdx.contrEquiv1_symm_val dot_S2048x256_S256x4_S2048x4_1_0_0_1_n_n 256 rfl rfl k
  have el : (dot_S2048x256_S256x4_S2048x4_1_0_0_1_n_n).lhsIdx (ix2 p j) ((ValueIdx.contrEquiv1 dot_S2048x256_S256x4_S2048x4_1_0_0_1_n_n 256 rfl rfl).symm k) = ix2 p k :=
    funext fun a => Fin.ext (by
      match a with
      | ⟨0, _⟩ => exact lhs_l3_0 _ _
      | ⟨1, _⟩ => exact (lhs_l3_1 _ _).trans hk)
  have er : (dot_S2048x256_S256x4_S2048x4_1_0_0_1_n_n).rhsIdx (ix2 p j) ((ValueIdx.contrEquiv1 dot_S2048x256_S256x4_S2048x4_1_0_0_1_n_n 256 rfl rfl).symm k) = ix2 k j :=
    funext fun a => Fin.ext (by
      match a with
      | ⟨0, _⟩ => exact (rhs_l3_0 _ _).trans hk
      | ⟨1, _⟩ => exact rhs_l3_1 _ _)
  rw [el, er]

/-! ## The first layer's layout operations at an index -/

/-- A `[1, 1]` array broadcast down a column of `a` rows reads its one entry at every row. -/
theorem broadcastTo_11_a1_apply {α : Type} {a : ℕ} (v : (⟨2, ![1, 1]⟩ : Shape).Idx → α)
    (h : (⟨2, ![1, 1]⟩ : Shape).Broadcasts ⟨2, ![a, 1]⟩) (p : Fin a) (c : Fin 1) :
    broadcastTo ⟨2, ![a, 1]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- Entry `c` of the packed row, spread down the block's column: that entry at every point. -/
theorem packed_apply (v2 : Vec Ideal S1x1x4 .f32) (o : ℕ) (h1 : S1x1x4.ShapeCasts S1x4) (hs : S1x4.Slices ![0, o] S1x1)
    (hb : S1x1.Broadcasts S2048x1) (c : Fin 4) (hc : c.val = o) (p : Fin 2048) :
    broadcastTo S2048x1 (extractStridedSlice S1x1 ![0, o] (shapeCast S1x4 v2 h1) hs) hb (ix2 p (0 : Fin 1))
      = v2 (ix3 (0 : Fin 1) (0 : Fin 1) c) := by
  refine (broadcastTo_11_a1_apply _ _ p 0).trans ?_
  refine (slice2_axis1_apply o _ hs (0 : Fin 1) (0 : Fin 1) c (by rw [hc]; rfl)).trans ?_
  exact shapeCast_1ab_ab_apply _ _ (0 : Fin 1) c

/-- Coordinate `c` of the block's points, as a column. -/
theorem coord_apply (v0 : Vec Ideal S1x2048x2 .f32) (o : ℕ) (h1 : S1x2048x2.ShapeCasts S2048x2)
    (hs : S2048x2.Slices ![0, o] S2048x1) (c : Fin 2) (hc : c.val = o) (p : Fin 2048) :
    extractStridedSlice S2048x1 ![0, o] (shapeCast S2048x2 v0 h1) hs (ix2 p (0 : Fin 1)) = v0 (ix3 (0 : Fin 1) p c) := by
  refine (slice2_axis1_apply o _ hs p (0 : Fin 1) c (by rw [hc]; rfl)).trans ?_
  exact shapeCast_1ab_ab_apply _ _ p c

/-- Coordinate `c` of a point less coordinate `c` of the field's position (entry `c` of the packed row). -/
theorem delta_apply (v0 : Vec Ideal S1x2048x2 .f32) (v2 : Vec Ideal S1x1x4 .f32) (o : ℕ) (h0 : S1x2048x2.ShapeCasts S2048x2)
    (hs0 : S2048x2.Slices ![0, o] S2048x1) (h1 : S1x1x4.ShapeCasts S1x4) (hs : S1x4.Slices ![0, o] S1x1)
    (hb : S1x1.Broadcasts S2048x1) (c : Fin 2) (c' : Fin 4) (hc : c.val = o) (hc' : c'.val = o) (p : Fin 2048) :
    subf (F := Ideal) (φ := .f32) (extractStridedSlice S2048x1 ![0, o] (shapeCast S2048x2 v0 h0) hs0)
        (broadcastTo S2048x1 (extractStridedSlice S1x1 ![0, o] (shapeCast S1x4 v2 h1) hs) hb) (ix2 p (0 : Fin 1))
      = v0 (ix3 (0 : Fin 1) p c) - v2 (ix3 (0 : Fin 1) (0 : Fin 1) c') :=
  (subf_apply _ _ _).trans (congrArg₂ (· - ·) (coord_apply v0 o h0 hs0 c hc p) (packed_apply v2 o h1 hs hb c' hc' p))

/-- Two columns set side by side: column 0 of the result is the first … -/
theorem concat_cols_apply_0 (x y : FVec Ideal S2048x1 .f32) (h : Shape.Concatenates [S2048x1, S2048x1] S2048x2 1)
    (p : Fin 2048) :
    concatenate S2048x2 1 [⟨S2048x1, x⟩, ⟨S2048x1, y⟩] h (ix2 p (0 : Fin 2)) = x (ix2 p (0 : Fin 1)) :=
  concatenate_pair_apply_left (t := S2048x2) (1 : Fin 2) x y h (ix2 p (0 : Fin 2)) rfl (ix2 p (0 : Fin 1))
    (fun b => by match b with | ⟨0, _⟩ => rfl | ⟨1, _⟩ => rfl)

/-- … and column 1 the second. -/
theorem concat_cols_apply_1 (x y : FVec Ideal S2048x1 .f32) (h : Shape.Concatenates [S2048x1, S2048x1] S2048x2 1)
    (p : Fin 2048) :
    concatenate S2048x2 1 [⟨S2048x1, x⟩, ⟨S2048x1, y⟩] h (ix2 p (1 : Fin 2)) = y (ix2 p (0 : Fin 1)) :=
  concatenate_pair_apply_right (t := S2048x2) (1 : Fin 2) x y h (ix2 p (1 : Fin 2)) rfl rfl (ix2 p (0 : Fin 1))
    (fun b hb => by match b with | ⟨0, _⟩ => rfl | ⟨1, _⟩ => exact absurd rfl hb) rfl

/-! ## The two values at an index -/

/-- The first hidden layer of a block, at point `p` and unit `j`. -/
theorem pay2_apply (v0 : Vec Ideal S1x2048x2 .f32) (v2 : Vec Ideal S1x1x4 .f32) (v30 : Vec Ideal S1x2x256 .bf16)
    (v33 : Vec Ideal S1x1x256 .f32) (p : Fin 2048) (j : Fin 256) :
    k0_pay2 (F := Ideal) v0 v2 v30 v33 (ix2 p j)
      = relu (dense 2
          (rot (v2 (ix3 (0 : Fin 1) (0 : Fin 1) (2 : Fin 4))) (v2 (ix3 (0 : Fin 1) (0 : Fin 1) (3 : Fin 4)))
            (v0 (ix3 (0 : Fin 1) p (0 : Fin 2)) - v2 (ix3 (0 : Fin 1) (0 : Fin 1) (0 : Fin 4)))
            (v0 (ix3 (0 : Fin 1) p (1 : Fin 2)) - v2 (ix3 (0 : Fin 1) (0 : Fin 1) (1 : Fin 4))))
          (fun k => v30 (ix3 (0 : Fin 1) k j)) (v33 (ix3 (0 : Fin 1) (0 : Fin 1) j))) := by
  simp only [k0_pay2]
  unfold dense relu
  refine (truncf_apply (φ := .f32) (ψ := .bf16) _ _ _).trans ?_
  refine (maximumf_apply _ _ _).trans ?_
  refine congrArg₂ max ?_ Ideal.ofBits_zero_f32
  refine (addf_apply _ _ _).trans ?_
  refine congrArg₂ (· + ·) ?_ ?_
  · refine (matmul_l1_apply _ _ p j).trans ?_
    refine Finset.sum_congr rfl fun k _ => ?_
    refine congrArg₂ (· * ·) ?_ (shapeCast_1ab_ab_apply _ _ k j)
    refine (truncf_apply (φ := .f32) (ψ := .bf16) _ _ _).trans ?_
    by_cases hk : k.val = 0
    · obtain rfl : k = 0 := Fin.ext hk
      refine (concat_cols_apply_0 _ _ _ p).trans ?_
      refine Eq.trans ?_ (rot_scaled_0 _ _ _ _)
      refine (mulf_apply _ _ _).trans (congrArg₂ (· * ·) ?_ ofBits_one)
      refine (addf_apply _ _ _).trans (congrArg₂ (· + ·) ?_ ?_)
      · exact (mulf_apply _ _ _).trans (congrArg₂ (· * ·) (packed_apply v2 2 _ _ _ 2 rfl p)
          (delta_apply v0 v2 0 _ _ _ _ _ 0 0 rfl rfl p))
      · exact (mulf_apply _ _ _).trans (congrArg₂ (· * ·) (packed_apply v2 3 _ _ _ 3 rfl p)
          (delta_apply v0 v2 1 _ _ _ _ _ 1 1 rfl rfl p))
    · obtain rfl : k = 1 := Fin.ext (by have := k.isLt; show k.val = 1; omega)
      refine (concat_cols_apply_1 _ _ _ p).trans ?_
      refine Eq.trans ?_ (rot_scaled_1 _ _ _ _)
      refine (mulf_apply _ _ _).trans (congrArg₂ (· * ·) ?_ ofBits_one)
      refine (subf_apply _ _ _).trans (congrArg₂ (· - ·) ?_ ?_)
      · exact (mulf_apply _ _ _).trans (congrArg₂ (· * ·) (packed_apply v2 2 _ _ _ 2 rfl p)
          (delta_apply v0 v2 1 _ _ _ _ _ 1 1 rfl rfl p))
      · exact (mulf_apply _ _ _).trans (congrArg₂ (· * ·) (packed_apply v2 3 _ _ _ 3 rfl p)
          (delta_apply v0 v2 0 _ _ _ _ _ 0 0 rfl rfl p))
  · refine (broadcastTo_1b_ab_apply _ _ p j).trans ?_
    exact shapeCast_1ab_ab_apply _ _ (0 : Fin 1) j

/-- The last two layers of a block, at point `p` and output `j`, from the first hidden layer `v39`. -/
theorem pay1_apply (v39 : FVec Ideal S2048x256 .bf16) (v40 : Vec Ideal S1x256x256 .bf16) (v43 : Vec Ideal S1x1x256 .f32)
    (v50 : Vec Ideal S1x256x4 .bf16) (v53 : Vec Ideal S1x1x4 .f32) (u : Fin 1) (p : Fin 2048) (j : Fin 4) :
    k0_pay1 (F := Ideal) v39 v40 v43 v50 v53 (ix3 u p j)
      = dense 256
          (fun k => relu (dense 256 (fun k' => v39 (ix2 p k')) (fun k' => v40 (ix3 (0 : Fin 1) k' k))
            (v43 (ix3 (0 : Fin 1) (0 : Fin 1) k))))
          (fun k => v50 (ix3 (0 : Fin 1) k j)) (v53 (ix3 (0 : Fin 1) (0 : Fin 1) j)) := by
  simp only [k0_pay1]
  unfold dense relu
  refine (shapeCast_ab_1ab_apply _ _ u p j).trans ?_
  refine (addf_apply _ _ _).trans ?_
  refine congrArg₂ (· + ·) ?_ ?_
  · refine (matmul_l3_apply _ _ p j).trans ?_
    refine Finset.sum_congr rfl fun k _ => ?_
    refine congrArg₂ (· * ·) ?_ ?_
    · refine (truncf_apply (φ := .f32) (ψ := .bf16) _ _ _).trans ?_
      refine (maximumf_apply _ _ _).trans ?_
      refine congrArg₂ max ?_ ?_
      · refine (addf_apply _ _ _).trans ?_
        refine congrArg₂ (· + ·) ?_ ?_
        · refine (matmul_l2_apply _ _ p k).trans ?_
          refine Finset.sum_congr rfl fun k' _ => ?_
          exact congrArg (_ * ·) (shapeCast_1ab_ab_apply _ _ k' k)
        · refine (broadcastTo_1b_ab_apply _ _ p k).trans ?_
          exact shapeCast_1ab_ab_apply _ _ (0 : Fin 1) k
      · exact Ideal.ofBits_zero_f32
    · exact shapeCast_1ab_ab_apply _ _ k j
  · refine (broadcastTo_1b_ab_apply _ _ p j).trans ?_
    exact shapeCast_1ab_ab_apply _ _ (0 : Fin 1) j

end Cert.KernelIdeal.Pay

end
-- ==== Proof.KernelArray.lean ====
/-
  The kernel's result array as one function of the argument arrays.
-/
import proofs.«123930_g18605798326295_fold_wed_c4_331_5_alg».proof.Proof.Gen.KernelIdeal.Value
import proofs.«123930_g18605798326295_fold_wed_c4_331_5_alg».proof.Proof.KernelPayload
import proofs.«123930_g18605798326295_fold_wed_c4_331_5_alg».proof.Proof.Spec

noncomputable section

namespace Cert.KernelIdeal.FieldValue

open Cert.KernelIdeal Cert.KernelIdeal.Gen Idealize.ShloMosaic Idealize.ShloMosaic.TcCoe Idealize.SL.Sem

open Idealize.ShloMosaic.ValueIdx Cert.FieldSpec

section Blocks

variable (m : (ℓ : Loc nD τ sig) → Buf (Elt Ideal) ℓ)

/-! ## The grid and the windows

The grid has one point per field. At point `t` every window's block is block `(t, 0, 0)` of its array: the field's
slab, whole along the other two axes. -/

theorem zero_offsets : (![0, 0, 0] : Fin 3 → Nat) = fun _ => 0 := funext fun a => by fin_cases a <;> rfl

/-- The nine index maps at a grid point, decided over the 64 points. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0)
    ∧ (win0_7.index t (0 : Fin 3) = t.val ∧ win0_7.index t (1 : Fin 3) = 0 ∧ win0_7.index t (2 : Fin 3) = 0)
    ∧ (win0_8.index t (0 : Fin 3) = t.val ∧ win0_8.index t (1 : Fin 3) = 0 ∧ win0_8.index t (2 : Fin 3) = 0) :=
  (by decide +kernel : ∀ t : Fin grid0.N, _)

/-- The field a grid point works on. -/
def field (t : Fin cfg0.N) : Fin 64 := Fin.cast N_0 t

/-! ## The arrays the windows read, as the argument arrays

Before the grid runs, position and orientation are packed side by side into rows `(px, py, o₀, o₁)`, the packed rows
and the three bias matrices get a unit axis between their two axes, and the three weight arrays change float format,
which over the extended reals changes nothing. -/

/-- A matrix with a unit axis put between its two axes is read, at `(e, u, j)`, at `(e, j)`: both indices have
    row-major position `e · n + j`. -/
theorem unitMiddle_apply {a n : ℕ} (x : (⟨2, ![a, n]⟩ : Shape).Idx → EReal)
    (h : (⟨2, ![a, n]⟩ : Shape).ShapeCasts ⟨3, ![a, 1, n]⟩) (e : Fin a) (u : Fin 1) (j : Fin n) :
    shapeCast ⟨3, ![a, 1, n]⟩ x h (ix3 e u j) = x (ix2 e j) :=
  shapeCast_apply x h _ _ (by
    have hu : u.val = 0 := by omega
    rw [Shape.rowMajor_val_three, Shape.rowMajor_val_two]
    show e.val * n + j.val = (e.val * 1 + u.val) * n + j.val
    rw [hu, Nat.mul_one, Nat.add_zero])

/-- Columns 0 and 1 of the packed rows are the first matrix's. -/
theorem pair_left (x₁ x₂ : Arr2 64 2) (e : Fin 64) (k : Fin 4) (k' : Fin 2) (hk : k'.val = k.val) :
    concatenate S64x4 1 [⟨S64x2, x₁⟩, ⟨S64x2, x₂⟩] concatenates_S64x2_S64x2_S64x4_d1 (ix2 e k) = x₁ (ix2 e k') :=
  concatenate_pair_apply_left (1 : Fin 2) x₁ x₂ concatenates_S64x2_S64x2_S64x4_d1 (ix2 e k) rfl (ix2 e k')
    (fun b => match b with | ⟨0, _⟩ => rfl | ⟨1, _⟩ => hk)

/-- Columns 2 and 3 of the packed rows are the second matrix's columns 0 and 1. -/
theorem pair_right (x₁ x₂ : Arr2 64 2) (e : Fin 64) (k : Fin 4) (k' : Fin 2) (hk : k'.val + 2 = k.val) :
    concatenate S64x4 1 [⟨S64x2, x₁⟩, ⟨S64x2, x₂⟩] concatenates_S64x2_S64x2_S64x4_d1 (ix2 e k) = x₂ (ix2 e k') :=
  concatenate_pair_apply_right (1 : Fin 2) x₁ x₂ concatenates_S64x2_S64x2_S64x4_d1 (ix2 e k) rfl rfl (ix2 e k')
    (fun b hb => match b, hb with | ⟨0, _⟩, _ => rfl | ⟨1, _⟩, hb => absurd rfl hb)
    hk

/-- The packed rows, from position and orientation. -/
theorem packed_eq (c : Dev nD) : (V m c main_v1 : S64x1x4.Idx → EReal)
    = shapeCast S64x1x4 (concatenate S64x4 1 [⟨S64x2, (m ((c : Thread nD τ).loc main_arg1))⟩, ⟨S64x2, (m ((c : Thread nD τ).loc main_arg2))⟩]
        concatenates_S64x2_S64x2_S64x4_d1) shapeCasts_S64x4_S64x1x4 := by
  dsimp only [Gen.V, Gen.hostOps0]; after_results; rfl

/-- The first layer's weights: the argument itself. -/
theorem weights0_eq (c : Dev nD) : (V m c main_v5 : S64x2x256.Idx → EReal) = (m ((c : Thread nD τ).loc main_arg3)) := by
  dsimp only [Gen.V, Gen.hostOps0]; after_results; rfl

/-- The first layer's bias rows. -/
theorem bias0_eq (c : Dev nD) : (V m c main_v2 : S64x1x256.Idx → EReal)
    = shapeCast S64x1x256 (m ((c : Thread nD τ).loc main_arg4)) shapeCasts_S64x256_S64x1x256 := by
  dsimp only [Gen.V, Gen.hostOps0]; after_results; rfl

/-- The second layer's weights: the argument itself. -/
theorem weights1_eq (c : Dev nD) : (V m c main_v6 : S64x256x256.Idx → EReal) = (m ((c : Thread nD τ).loc main_arg5)) := by
  dsimp only [Gen.V, Gen.hostOps0]; after_results; rfl

/-- The second layer's bias rows. -/
theorem bias1_eq (c : Dev nD) : (V m c main_v3 : S64x1x256.Idx → EReal)
    = shapeCast S64x1x256 (m ((c : Thread nD τ).loc main_arg6)) shapeCasts_S64x256_S64x1x256 := by
  dsimp only [Gen.V, Gen.hostOps0]; after_results; rfl

/-- The last layer's weights: the argument itself. -/
theorem weights2_eq (c : Dev nD) : (V m c main_v7 : S64x256x4.Idx → EReal) = (m ((c : Thread nD τ).loc main_arg7)) := by
  dsimp only [Gen.V, Gen.hostOps0]; after_results; rfl

/-- The last layer's bias rows. -/
theorem bias2_eq (c : Dev nD) : (V m c main_v4 : S64x1x4.Idx → EReal)
    = shapeCast S64x1x4 (m ((c : Thread nD τ).loc main_arg8)) shapeCasts_S64x4_S64x1x4 := by
  dsimp only [Gen.V, Gen.hostOps0]; after_results; rfl

/-! ## Each window's block at a grid point, entry by entry

An entry `(0, y₁, y₂)` of a block at point `t` sits in the array at `(t · 1 + 0, 0 · A + y₁, 0 · B + y₂)`. -/

/-- The block of query points is the field's slab of the points array. -/
theorem points_apply (c : Dev nD) (t : Fin cfg0.N) (p : Fin 2048) (k : Fin 2) :
    (iblk m c 0 t : S1x2048x2.Idx → EReal) (ix3 (0 : Fin 1) p k)
      = (m ((c : Thread nD τ).loc main_arg0) : Arr3 64 2048 2) (ix3 (field t) p k) := by
  obtain ⟨⟨a0, a1, a2⟩, -, -, -, -, -, -, -, -⟩ := idx_facts t
  show (V m c main_arg0 : S64x2048x2.Idx → EReal) (((cfg0.win 0).blk t).view.emb (ix3 (0 : Fin 1) p k)) = _
  refine (congrFun (V_main_arg0 m c) _).trans (congrArg _ (funext fun a => Fin.ext ?_))
  match a with
  | ⟨0, _⟩ => show win0_0.index t (0 : Fin 3) * 1 + 1 * 0 = t.val; omega
  | ⟨1, _⟩ => show win0_0.index t (1 : Fin 3) * 2048 + 1 * p.val = p.val; omega
  | ⟨2, _⟩ => show win0_0.index t (2 : Fin 3) * 2 + 1 * k.val = k.val; omega

/-- The packed row of the field. -/
theorem packed_apply (c : Dev nD) (t : Fin cfg0.N) (k : Fin 4) :
    (iblk m c 1 t : S1x1x4.Idx → EReal) (ix3 (0 : Fin 1) (0 : Fin 1) k)
      = (V m c main_v1 : S64x1x4.Idx → EReal) (ix3 (field t) (0 : Fin 1) k) := by
  obtain ⟨-, ⟨a0, a1, a2⟩, -, -, -, -, -, -, -⟩ := idx_facts t
  show (V m c main_v1 : S64x1x4.Idx → EReal) (((cfg0.win 1).blk t).view.emb (ix3 (0 : Fin 1) (0 : Fin 1) k)) = _
  refine congrArg _ (funext fun a => Fin.ext ?_)
  match a with
  | ⟨0, _⟩ => show win0_1.index t (0 : Fin 3) * 1 + 1 * 0 = t.val; omega
  | ⟨1, _⟩ => show win0_1.index t (1 : Fin 3) * 1 + 1 * 0 = 0; omega
  | ⟨2, _⟩ => show win0_1.index t (2 : Fin 3) * 4 + 1 * k.val = k.val; omega

/-- The first layer's weights of the field. -/
theorem weights0_apply (c : Dev nD) (t : Fin cfg0.N) (k : Fin 2) (j : Fin 256) :
    (iblk m c 2 t : S1x2x256.Idx → EReal) (ix3 (0 : Fin 1) k j)
      = (V m c main_v5 : S64x2x256.Idx → EReal) (ix3 (field t) k j) := by
  obtain ⟨-, -, ⟨a0, a1, a2⟩, -, -, -, -, -, -⟩ := idx_facts t
  show (V m c main_v5 : S64x2x256.Idx → EReal) (((cfg0.win 2).blk t).view.emb (ix3 (0 : Fin 1) k j)) = _
  refine congrArg _ (funext fun a => Fin.ext ?_)
  match a with
  | ⟨0, _⟩ => show win0_2.index t (0 : Fin 3) * 1 + 1 * 0 = t.val; omega
  | ⟨1, _⟩ => show win0_2.index t (1 : Fin 3) * 2 + 1 * k.val = k.val; omega
  | ⟨2, _⟩ => show win0_2.index t (2 : Fin 3) * 256 + 1 * j.val = j.val; omega

/-- The first layer's bias row of the field. -/
theorem bias0_apply (c : Dev nD) (t : Fin cfg0.N) (j : Fin 256) :
    (iblk m c 3 t : S1x1x256.Idx → EReal) (ix3 (0 : Fin 1) (0 : Fin 1) j)
      = (V m c main_v2 : S64x1x256.Idx → EReal) (ix3 (field t) (0 : Fin 1) j) := by
  obtain ⟨-, -, -, ⟨a0, a1, a2⟩, -, -, -, -, -⟩ := idx_facts t
  show (V m c main_v2 : S64x1x256.Idx → EReal) (((cfg0.win 3).blk t).view.emb (ix3 (0 : Fin 1) (0 : Fin 1) j)) = _
  refine congrArg _ (funext fun a => Fin.ext ?_)
  match a with
  | ⟨0, _⟩ => show win0_3.index t (0 : Fin 3) * 1 + 1 * 0 = t.val; omega
  | ⟨1, _⟩ => show win0_3.index t (1 : Fin 3) * 1 + 1 * 0 = 0; omega
  | ⟨2, _⟩ => show win0_3.index t (2 : Fin 3) * 256 + 1 * j.val = j.val; omega

/-- The second layer's weights of the field. -/
theorem weights1_apply (c : Dev nD) (t : Fin cfg0.N) (k : Fin 256) (j : Fin 256) :
    (iblk m c 4 t : S1x256x256.Idx → EReal) (ix3 (0 : Fin 1) k j)
      = (V m c main_v6 : S64x256x256.Idx → EReal) (ix3 (field t) k j) := by
  obtain ⟨-, -, -, -, ⟨a0, a1, a2⟩, -, -, -, -⟩ := idx_facts t
  show (V m c main_v6 : S64x256x256.Idx → EReal) (((cfg0.win 4).blk t).view.emb (ix3 (0 : Fin 1) k j)) = _
  refine congrArg _ (funext fun a => Fin.ext ?_)
  match a with
  | ⟨0, _⟩ => show win0_4.index t (0 : Fin 3) * 1 + 1 * 0 = t.val; omega
  | ⟨1, _⟩ => show win0_4.index t (1 : Fin 3) * 256 + 1 * k.val = k.val; omega
  | ⟨2, _⟩ => show win0_4.index t (2 : Fin 3) * 256 + 1 * j.val = j.val; omega

/-- The second layer's bias row of the field. -/
theorem bias1_apply (c : Dev nD) (t : Fin cfg0.N) (j : Fin 256) :
    (iblk m c 5 t : S1x1x256.Idx → EReal) (ix3 (0 : Fin 1) (0 : Fin 1) j)
      = (V m c main_v3 : S64x1x256.Idx → EReal) (ix3 (field t) (0 : Fin 1) j) := by
  obtain ⟨-, -, -, -, -, ⟨a0, a1, a2⟩, -, -, -⟩ := idx_facts t
  show (V m c main_v3 : S64x1x256.Idx → EReal) (((cfg0.win 5).blk t).view.emb (ix3 (0 : Fin 1) (0 : Fin 1) j)) = _
  refine congrArg _ (funext fun a => Fin.ext ?_)
  match a with
  | ⟨0, _⟩ => show win0_5.index t (0 : Fin 3) * 1 + 1 * 0 = t.val; omega
  | ⟨1, _⟩ => show win0_5.index t (1 : Fin 3) * 1 + 1 * 0 = 0; omega
  | ⟨2, _⟩ => show win0_5.index t (2 : Fin 3) * 256 + 1 * j.val = j.val; omega

/-- The last layer's weights of the field. -/
theorem weights2_apply (c : Dev nD) (t : Fin cfg0.N) (k : Fin 256) (j : Fin 4) :
    (iblk m c 6 t : S1x256x4.Idx → EReal) (ix3 (0 : Fin 1) k j)
      = (V m c main_v7 : S64x256x4.Idx → EReal) (ix3 (field t) k j) := by
  obtain ⟨-, -, -, -, -, -, ⟨a0, a1, a2⟩, -, -⟩ := idx_facts t
  show (V m c main_v7 : S64x256x4.Idx → EReal) (((cfg0.win 6).blk t).view.emb (ix3 (0 : Fin 1) k j)) = _
  refine congrArg _ (funext fun a => Fin.ext ?_)
  match a with
  | ⟨0, _⟩ => show win0_6.index t (0 : Fin 3) * 1 + 1 * 0 = t.val; omega
  | ⟨1, _⟩ => show win0_6.index t (1 : Fin 3) * 256 + 1 * k.val = k.val; omega
  | ⟨2, _⟩ => show win0_6.index t (2 : Fin 3) * 4 + 1 * j.val = j.val; omega

/-- The last layer's bias row of the field. -/
theorem bias2_apply (c : Dev nD) (t : Fin cfg0.N) (j : Fin 4) :
    (iblk m c 7 t : S1x1x4.Idx → EReal) (ix3 (0 : Fin 1) (0 : Fin 1) j)
      = (V m c main_v4 : S64x1x4.Idx → EReal) (ix3 (field t) (0 : Fin 1) j) := by
  obtain ⟨-, -, -, -, -, -, -, ⟨a0, a1, a2⟩, -⟩ := idx_facts t
  show (V m c main_v4 : S64x1x4.Idx → EReal) (((cfg0.win 7).blk t).view.emb (ix3 (0 : Fin 1) (0 : Fin 1) j)) = _
  refine congrArg _ (funext fun a => Fin.ext ?_)
  match a with
  | ⟨0, _⟩ => show win0_7.index t (0 : Fin 3) * 1 + 1 * 0 = t.val; omega
  | ⟨1, _⟩ => show win0_7.index t (1 : Fin 3) * 1 + 1 * 0 = 0; omega
  | ⟨2, _⟩ => show win0_7.index t (2 : Fin 3) * 4 + 1 * j.val = j.val; omega

/-! ## One field's block of outputs -/

/-- The two layers after the first hidden layer, applied to the first hidden layer of blocks that hold field `e`'s
    entries, give the specification's output of field `e`: the same tree of contractions, biases and clips, leaf by
    leaf. -/
theorem point_eq (q : Arr3 64 2048 2) (pos ori : Arr2 64 2) (W0 : Arr3 64 2 256) (b0 : Arr2 64 256)
    (W1 : Arr3 64 256 256) (b1 : Arr2 64 256) (W2 : Arr3 64 256 4) (b2 : Arr2 64 4)
    (x0 : Vec Ideal S1x2048x2 .f32) (x1 : Vec Ideal S1x1x4 .f32) (x2 : Vec Ideal S1x2x256 .bf16)
    (x3 : Vec Ideal S1x1x256 .f32) (x4 : Vec Ideal S1x256x256 .bf16) (x5 : Vec Ideal S1x1x256 .f32)
    (x6 : Vec Ideal S1x256x4 .bf16) (x7 : Vec Ideal S1x1x4 .f32) (e : Fin 64)
    (hq : ∀ (p : Fin 2048) (k : Fin 2), x0 (ix3 (0 : Fin 1) p k) = q (ix3 e p k))
    (hpx : x1 (ix3 (0 : Fin 1) (0 : Fin 1) (0 : Fin 4)) = pos (ix2 e (0 : Fin 2)))
    (hpy : x1 (ix3 (0 : Fin 1) (0 : Fin 1) (1 : Fin 4)) = pos (ix2 e (1 : Fin 2)))
    (hox : x1 (ix3 (0 : Fin 1) (0 : Fin 1) (2 : Fin 4)) = ori (ix2 e (0 : Fin 2)))
    (hoy : x1 (ix3 (0 : Fin 1) (0 : Fin 1) (3 : Fin 4)) = ori (ix2 e (1 : Fin 2)))
    (hW0 : ∀ (k : Fin 2) (j : Fin 256), x2 (ix3 (0 : Fin 1) k j) = W0 (ix3 e k j))
    (hb0 : ∀ j : Fin 256, x3 (ix3 (0 : Fin 1) (0 : Fin 1) j) = b0 (ix2 e j))
    (hW1 : ∀ (k : Fin 256) (j : Fin 256), x4 (ix3 (0 : Fin 1) k j) = W1 (ix3 e k j))
    (hb1 : ∀ j : Fin 256, x5 (ix3 (0 : Fin 1) (0 : Fin 1) j) = b1 (ix2 e j))
    (hW2 : ∀ (k : Fin 256) (j : Fin 4), x6 (ix3 (0 : Fin 1) k j) = W2 (ix3 e k j))
    (hb2 : ∀ j : Fin 4, x7 (ix3 (0 : Fin 1) (0 : Fin 1) j) = b2 (ix2 e j))
    (u : Fin 1) (p : Fin 2048) (j : Fin 4) :
    k0_pay1 (F := Ideal) (k0_pay2 (F := Ideal) x0 x1 x2 x3) x4 x5 x6 x7 (ix3 u p j)
      = outAt q pos ori W0 b0 W1 b1 W2 b2 e p j := by
  rw [Pay.pay1_apply]
  simp only [Pay.pay2_apply, hq, hpx, hpy, hox, hoy, hW0, hb0, hW1, hb1, hW2, hb2]
  rfl

/-- The specification's result array of core `c`'s argument arrays. -/
abbrev result (c : Dev nD) : Arr3 64 2048 4 :=
  Cert.FieldSpec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- What grid point `t` writes back is block `t` of the specification's result array. -/
theorem flushed_eq (c : Dev nD) (t : Fin cfg0.N) :
    (dats m 0 c).flushed 8 t = ((cfg0.win 8).blk t).view.read (Elt Ideal) (result m c) := by
  rw [Cert.KernelIdeal.Value.flushed8]
  unfold out0_8
  rw [View.canon_unit_zero zero_offsets]
  simp only [View.ld_unit_zero (S := S1x2048x2) zero_offsets, View.ld_unit_zero (S := S1x1x4) zero_offsets,
    View.ld_unit_zero (S := S1x2x256) zero_offsets, View.ld_unit_zero (S := S1x1x256) zero_offsets,
    View.ld_unit_zero (S := S1x256x256) zero_offsets, View.ld_unit_zero (S := S1x256x4) zero_offsets]
  refine funext fun (y : S1x2048x4.Idx) => ?_
  obtain ⟨u, p, j, rfl⟩ : ∃ (u : Fin 1) (p : Fin 2048) (j : Fin 4), y = ix3 u p j := ⟨y 0, y 1, y 2, eq_ix3 y⟩
  show k0_pay1 (F := Ideal) (k0_pay2 (F := Ideal) (iblk m c 0 t) (iblk m c 1 t) (iblk m c 2 t) (iblk m c 3 t))
      (iblk m c 4 t) (iblk m c 5 t) (iblk m c 6 t) (iblk m c 7 t) (ix3 u p j)
    = result m c (((cfg0.win 8).blk t).view.emb (ix3 u p j))
  have hemb : ((cfg0.win 8).blk t).view.emb (ix3 u p j) = (ix3 (field t) p j : S64x2048x4.Idx) := by
    obtain ⟨-, -, -, -, -, -, -, -, a0, a1, a2⟩ := idx_facts t
    have hu : u.val = 0 := by omega
    refine funext fun a => Fin.ext ?_
    match a with
    | ⟨0, _⟩ => show win0_8.index t (0 : Fin 3) * 1 + 1 * u.val = t.val; omega
    | ⟨1, _⟩ => show win0_8.index t (1 : Fin 3) * 2048 + 1 * p.val = p.val; omega
    | ⟨2, _⟩ => show win0_8.index t (2 : Fin 3) * 4 + 1 * j.val = j.val; omega
  rw [hemb]
  refine point_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    (iblk m c 0 t) (iblk m c 1 t) (iblk m c 2 t) (iblk m c 3 t) (iblk m c 4 t) (iblk m c 5 t) (iblk m c 6 t) (iblk m c 7 t)
    (field t) (points_apply m c t) ?_ ?_ ?_ ?_ ?_ ?_ ?_ ?_ ?_ ?_ u p j
  · exact (packed_apply m c t 0).trans ((congrFun (packed_eq m c) _).trans
      ((unitMiddle_apply _ _ _ _ _).trans (pair_left _ _ _ _ 0 rfl)))
  · exact (packed_apply m c t 1).trans ((congrFun (packed_eq m c) _).trans
      ((unitMiddle_apply _ _ _ _ _).trans (pair_left _ _ _ _ 1 rfl)))
  · exact (packed_apply m c t 2).trans ((congrFun (packed_eq m c) _).trans
      ((unitMiddle_apply _ _ _ _ _).trans (pair_right _ _ _ _ 0 rfl)))
  · exact (packed_apply m c t 3).trans ((congrFun (packed_eq m c) _).trans
      ((unitMiddle_apply _ _ _ _ _).trans (pair_right _ _ _ _ 1 rfl)))
  · exact fun k j => (weights0_apply m c t k j).trans (congrFun (weights0_eq m c) _)
  · exact fun j => (bias0_apply m c t j).trans ((congrFun (bias0_eq m c) _).trans (unitMiddle_apply _ _ _ _ _))
  · exact fun k j => (weights1_apply m c t k j).trans (congrFun (weights1_eq m c) _)
  · exact fun j => (bias1_apply m c t j).trans ((congrFun (bias1_eq m c) _).trans (unitMiddle_apply _ _ _ _ _))
  · exact fun k j => (weights2_apply m c t k j).trans (congrFun (weights2_eq m c) _)
  · exact fun j => (bias2_apply m c t j).trans ((congrFun (bias2_eq m c) _).trans (unitMiddle_apply _ _ _ _ _))

/-! ## The blocks fill the result array -/

/-- An index of the result array is in point `t`'s block iff each coordinate is in the block's range on its axis. -/
theorem mem_blk (t : Fin cfg0.N) (i : S64x2048x4.Idx) :
    i ∈ ((cfg0.win 8).blk t).view.set ↔ ∀ a : Fin 3, win0_8.index t a * S1x2048x4.size a ≤ (i a).val
      ∧ (i a).val < win0_8.index t a * S1x2048x4.size a + S1x2048x4.size a := by
  show i ∈ ((View.whole main_v8).slice (win0_8.rect t)).set ↔ _
  rw [View.set_slice_whole, Rect.mem_set_unit]
  exact Iff.rfl

/-- Entry `(e, p, j)` of the result array is in the block of the point of field `e`. -/
theorem cover (i : S64x2048x4.Idx) :
    ∃ t : Fin cfg0.N, (cfg0.win 8).flush t = true ∧ i ∈ ((cfg0.win 8).blk t).view.set := by
  have h0 : (i 0).val < 64 := (i 0).isLt
  have h1 : (i 1).val < 2048 := (i 1).isLt
  have h2 : (i 2).val < 4 := (i 2).isLt
  obtain ⟨t, ht⟩ : ∃ t : Fin cfg0.N, t.val = (i 0).val := ⟨Fin.cast N_0.symm ⟨(i 0).val, h0⟩, rfl⟩
  obtain ⟨-, -, -, -, -, -, -, -, a0, a1, a2⟩ := idx_facts t
  refine ⟨t, flush0_8 t, ?_⟩
  rw [mem_blk]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 2048 ≤ (i 1).val ∧ (i 1).val < win0_8.index t (1 : Fin 3) * 2048 + 2048; omega
  | ⟨2, _⟩ => show win0_8.index t (2 : Fin 3) * 4 ≤ (i 2).val ∧ (i 2).val < win0_8.index t (2 : Fin 3) * 4 + 4; omega

/-- So after the last grid point the result array is the specification's. -/
theorem final (c : Dev nD) : (dats m 0 c).arrAt 8 cfg0.N = result m c :=
  (dats m 0 c).arrAt_eq_of_cover 8 (result m c) (fun t _ => flushed_eq m c t) cover

end Blocks

/-- Every weakly fair execution of the kernel's program ends with the result array at the specification of the
    argument arrays, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v8)
        = Cert.FieldSpec.out (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5)) (m ((c : Thread nD τ).loc main_arg6)) (m ((c : Thread nD τ).loc main_arg7))
            (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c).1.trans (final m c), (h c).2⟩)
    (Cert.KernelIdeal.Value.run_blocks m ρ)

end Cert.KernelIdeal.FieldValue

end
-- ==== Proof.RefTerm.lean ====
/-
  The reference's result as a term of its nine arguments, stage by stage.

  `delta` is the query points less the field's position; `conj` the orientation times `(1, −1)`, its conjugate;
  `cre`, `cim` and `dre`, `dim` are their real and imaginary components as arrays over fields (and points);
  `localPts` is the complex product of the conjugate with `delta`, its two components laid side by side, divided
  by the unit radius; `hid0`, `hid1` are the two hidden layers (a batched contraction over the layer's input axis,
  plus the bias, clipped below at zero) and `refTerm` the last layer.
-/
import proofs.«123930_g18605798326295_fold_wed_c4_331_5_alg».proof.Proof.Gen.ReferenceIdeal

noncomputable section

namespace Cert.ReferenceIdeal.RefValue

open Cert.ReferenceIdeal Cert.ReferenceIdeal.Gen Idealize.ShloMosaic

variable {F : FTy → Type} [FloatOps F]

/-- The query points in each field's translated frame: `q(e,p,·) − pos(e,·)`. -/
def delta (a0 : FVec F S64x2048x2 .f32) (a1 : FVec F S64x2 .f32) : FVec F S64x2048x2 .f32 :=
  subf a0 (broadcastInDim S64x2048x2 ![0, 1, 2] bcast_S64x1x2_S64x2048x2_0_1_2
    (broadcastInDim S64x1x2 ![0, 2] bcast_S64x2_S64x1x2_0_2 a1))

/-- The conjugate orientation `(o₀·1, o₁·(−1))`, with a unit middle axis. -/
def conj (a2 : FVec F S64x2 .f32) : FVec F S64x1x2 .f32 :=
  broadcastInDim S64x1x2 ![0, 2] bcast_S64x2_S64x1x2_0_2
    (mulf a2 (broadcastInDim S64x2 ![0, 1] bcast_S1x2_S64x2_0_1
      (broadcastInDim S1x2 ![1] bcast_S2_S1x2_1 (fun i => FloatOps.ofBits .f32 (lit0 (S2.rowMajor i))))))

/-- The conjugate's real component, per field. -/
def cre (a2 : FVec F S64x2 .f32) : FVec F S64x1 .f32 :=
  shapeCast S64x1 (extractStridedSlice S64x1x1 ![0, 0, 0] (conj a2) slices_S64x1x2_S64x1x1_0_0_0) shapeCasts_S64x1x1_S64x1

/-- The conjugate's imaginary component, per field. -/
def cim (a2 : FVec F S64x2 .f32) : FVec F S64x1 .f32 :=
  shapeCast S64x1 (extractStridedSlice S64x1x1 ![0, 0, 1] (conj a2) slices_S64x1x2_S64x1x1_0_0_1) shapeCasts_S64x1x1_S64x1

/-- The translated points' real component. -/
def dre (a0 : FVec F S64x2048x2 .f32) (a1 : FVec F S64x2 .f32) : FVec F S64x2048 .f32 :=
  shapeCast S64x2048 (extractStridedSlice S64x2048x1 ![0, 0, 0] (delta a0 a1) slices_S64x2048x2_S64x2048x1_0_0_0) shapeCasts_S64x2048x1_S64x2048

/-- The translated points' imaginary component. -/
def dim (a0 : FVec F S64x2048x2 .f32) (a1 : FVec F S64x2 .f32) : FVec F S64x2048 .f32 :=
  shapeCast S64x2048 (extractStridedSlice S64x2048x1 ![0, 0, 1] (delta a0 a1) slices_S64x2048x2_S64x2048x1_0_0_1) shapeCasts_S64x2048x1_S64x2048

/-- The points in each field's local frame: the complex product `conj · delta`, divided by the unit radius. -/
def localPts (a0 : FVec F S64x2048x2 .f32) (a1 a2 : FVec F S64x2 .f32) : FVec F S64x2048x2 .f32 :=
  Host.divf
    (concatenate S64x2048x2 2
      [⟨S64x2048x1, broadcastInDim S64x2048x1 ![0, 1] bcast_S64x2048_S64x2048x1_0_1
          (subf (mulf (broadcastInDim S64x2048 ![0, 1] bcast_S64x1_S64x2048_0_1 (cre a2)) (dre a0 a1))
                (mulf (broadcastInDim S64x2048 ![0, 1] bcast_S64x1_S64x2048_0_1 (cim a2)) (dim a0 a1)))⟩,
       ⟨S64x2048x1, broadcastInDim S64x2048x1 ![0, 1] bcast_S64x2048_S64x2048x1_0_1
          (addf (mulf (broadcastInDim S64x2048 ![0, 1] bcast_S64x1_S64x2048_0_1 (cre a2)) (dim a0 a1))
                (mulf (dre a0 a1) (broadcastInDim S64x2048 ![0, 1] bcast_S64x1_S64x2048_0_1 (cim a2))))⟩]
      concatenates_S64x2048x1_S64x2048x1_S64x2048x2_d2)
    (broadcastInDim S64x2048x2 ![] bcast_S_S64x2048x2 (constant S_ .f32 0x3F800000#32))

/-- The first hidden layer. -/
def hid0 (a0 : FVec F S64x2048x2 .f32) (a1 a2 : FVec F S64x2 .f32) (a3 : FVec F S64x2x256 .f32) (a4 : FVec F S64x256 .f32) :
    FVec F S64x2048x256 .f32 :=
  maximumf
    (addf (Host.dotGeneral dot_S64x2048x2_S64x2x256_S64x2048x256_2_1_1_2_0_0 none (localPts a0 a1 a2) a3)
      (broadcastInDim S64x2048x256 ![0, 1, 2] bcast_S64x1x256_S64x2048x256_0_1_2
        (broadcastInDim S64x1x256 ![0, 2] bcast_S64x256_S64x1x256_0_2 a4)))
    (broadcastInDim S64x2048x256 ![] bcast_S_S64x2048x256 (constant S_ .f32 0x00000000#32))

/-- The second hidden layer. -/
def hid1 (a0 : FVec F S64x2048x2 .f32) (a1 a2 : FVec F S64x2 .f32) (a3 : FVec F S64x2x256 .f32) (a4 : FVec F S64x256 .f32)
    (a5 : FVec F S64x256x256 .f32) (a6 : FVec F S64x256 .f32) : FVec F S64x2048x256 .f32 :=
  maximumf
    (addf (Host.dotGeneral dot_S64x2048x256_S64x256x256_S64x2048x256_2_1_1_2_0_0 none (hid0 a0 a1 a2 a3 a4) a5)
      (broadcastInDim S64x2048x256 ![0, 1, 2] bcast_S64x1x256_S64x2048x256_0_1_2
        (broadcastInDim S64x1x256 ![0, 2] bcast_S64x256_S64x1x256_0_2 a6)))
    (broadcastInDim S64x2048x256 ![] bcast_S_S64x2048x256 (constant S_ .f32 0x00000000#32))

/-- The reference's result array. -/
def refTerm (a0 : FVec F S64x2048x2 .f32) (a1 a2 : FVec F S64x2 .f32) (a3 : FVec F S64x2x256 .f32) (a4 : FVec F S64x256 .f32)
    (a5 : FVec F S64x256x256 .f32) (a6 : FVec F S64x256 .f32) (a7 : FVec F S64x256x4 .f32) (a8 : FVec F S64x4 .f32) :
    FVec F S64x2048x4 .f32 :=
  addf (Host.dotGeneral dot_S64x2048x256_S64x256x4_S64x2048x4_2_1_1_2_0_0 none (hid1 a0 a1 a2 a3 a4 a5 a6) a7)
    (broadcastInDim S64x2048x4 ![0, 1, 2] bcast_S64x1x4_S64x2048x4_0_1_2
      (broadcastInDim S64x1x4 ![0, 2] bcast_S64x4_S64x1x4_0_2 a8))

end Cert.ReferenceIdeal.RefValue

end
-- ==== Proof.RefRun.lean ====
/-
  The reference program's run: its @main is a straight line of fifty host operations, so every weakly fair
  execution terminates with each buffer at the fold of the operations' results over the launch contents; read
  at the result buffer that fold is the term `refTerm` of the nine arguments, and no operation writes an argument.
-/
import proofs.«123930_g18605798326295_fold_wed_c4_331_5_alg».proof.Proof.Gen.ReferenceIdeal
import proofs.«123930_g18605798326295_fold_wed_c4_331_5_alg».proof.Proof.RefTerm
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's fifty operations, in order. -/
abbrev ops : List (HloOp τ sig (Elt F)) :=
  [ StableHlo.nullary main_cst (fun i => FloatOps.ofBits .f32 (lit0 (S2.rowMajor i))),
    StableHlo.unary main_arg1 main_v0 (broadcastInDim S64x1x2 ![0, 2] bcast_S64x2_S64x1x2_0_2 : (⟨S64x2, .f32⟩ : BufTy).Contents (Elt F) → (⟨S64x1x2, .f32⟩ : BufTy).Contents (Elt F)),
    StableHlo.unary main_v0 main_v1 (broadcastInDim S64x2048x2 ![0, 1, 2] bcast_S64x1x2_S64x2048x2_0_1_2 : (⟨S64x1x2, .f32⟩ : BufTy).Contents (Elt F) → (⟨S64x2048x2, .f32⟩ : BufTy).Contents (Elt F)),
    StableHlo.binary main_arg0 main_v1 main_v2 (subf : (⟨S64x2048x2, .f32⟩ : BufTy).Contents (Elt F) → (⟨S64x2048x2, .f32⟩ : BufTy).Contents (Elt F) → (⟨S64x2048x2, .f32⟩ : BufTy).Contents (Elt F)),
    StableHlo.unary main_cst main_v3 (broadcastInDim S1x2 ![1] bcast_S2_S1x2_1 : (⟨S2, .f32⟩ : BufTy).Contents (Elt F) → (⟨S1x2, .f32⟩ : BufTy).Contents (Elt F)),
    StableHlo.unary main_v3 main_v4 (broadcastInDim S64x2 ![0, 1] bcast_S1x2_S64x2_0_1 : (⟨S1x2, .f32⟩ : BufTy).Contents (Elt F) → (⟨S64x2, .f32⟩ : BufTy).Contents (Elt F)),
    StableHlo.binary main_arg2 main_v4 main_v5 (mulf : (⟨S64x2, .f32⟩ : BufTy).Contents (Elt F) → (⟨S64x2, .f32⟩ : BufTy).Contents (Elt F) → (⟨S64x2, .f32⟩ : BufTy).Contents (Elt F)),
    StableHlo.unary main_v5 main_v6 (broadcastInDim S64x1x2 ![0, 2] bcast_S64x2_S64x1x2_0_2 : (⟨S64x2, .f32⟩ : BufTy).Contents (Elt F) → (⟨S64x1x2, .f32⟩ : BufTy).Contents (Elt F)),
    StableHlo.unary main_v6 main_v7 ((extractStridedSlice S64x1x1 ![0, 0, 0] · slices_S64x1x2_S64x1x1_0_0_0) : (⟨S64x1x2, .f32⟩ : BufTy).Contents (Elt F) → (⟨S64x1x1, .f32⟩ : BufTy).Contents (Elt F)),
    StableHlo.reshape main_v7 main_v8 rfl shapeCasts_S64x1x1_S64x1,
    StableHlo.unary main_v6 main_v9 ((extractStridedSlice S64x1x1 ![0, 0, 1] · slices_S64x1x2_S64x1x1_0_0_1) : (⟨S64x1x2, .f32⟩ : BufTy).Contents (Elt F) → (⟨S64x1x1, .f32⟩ : BufTy).Contents (Elt F)),
    StableHlo.reshape main_v9 main_v10 rfl shapeCasts_S64x1x1_S64x1,
    StableHlo.unary main_v2 main_v11 ((extractStridedSlice S64x2048x1 ![0, 0, 0] · slices_S64x2048x2_S64x2048x1_0_0_0) : (⟨S64x2048x2, .f32⟩ : BufTy).Contents (Elt F) → (⟨S64x2048x1, .f32⟩ : BufTy).Contents (Elt F)),
    StableHlo.reshape main_v11 main_v12 rfl shapeCasts_S64x2048x1_S64x2048,
    StableHlo.unary main_v2 main_v13 ((extractStridedSlice S64x2048x1 ![0, 0, 1] · slices_S64x2048x2_S64x2048x1_0_0_1) : (⟨S64x2048x2, .f32⟩ : BufTy).Contents (Elt F) → (⟨S64x2048x1, .f32⟩ : BufTy).Contents (Elt F)),
    StableHlo.reshape main_v13 main_v14 rfl shapeCasts_S64x2048x1_S64x2048,
    StableHlo.unary main_v8 main_v15 (broadcastInDim S64x2048 ![0, 1] bcast_S64x1_S64x2048_0_1 : (⟨S64x1, .f32⟩ : BufTy).Contents (Elt F) → (⟨S64x2048, .f32⟩ : BufTy).Contents (Elt F)),
    StableHlo.binary main_v15 main_v12 main_v16 (mulf : (⟨S64x2048, .f32⟩ : BufTy).Contents (Elt F) → (⟨S64x2048, .f32⟩ : BufTy).Contents (Elt F) → (⟨S64x2048, .f32⟩ : BufTy).Contents (Elt F)),
    StableHlo.unary main_v10 main_v17 (broadcastInDim S64x2048 ![0, 1] bcast_S64x1_S64x2048_0_1 : (⟨S64x1, .f32⟩ : BufTy).Contents (Elt F) → (⟨S64x2048, .f32⟩ : BufTy).Contents (Elt F)),
    StableHlo.binary main_v17 main_v14 main_v18 (mulf : (⟨S64x2048, .f32⟩ : BufTy).Contents (Elt F) → (⟨S64x2048, .f32⟩ : BufTy).Contents (Elt F) → (⟨S64x2048, .f32⟩ : BufTy).Contents (Elt F)),
    StableHlo.binary main_v16 main_v18 main_v19 (subf : (⟨S64x2048, .f32⟩ : BufTy).Contents (Elt F) → (⟨S64x2048, .f32⟩ : BufTy).Contents (Elt F) → (⟨S64x2048, .f32⟩ : BufTy).Contents (Elt F)),
    StableHlo.unary main_v8 main_v20 (broadcastInDim S64x2048 ![0, 1] bcast_S64x1_S64x2048_0_1 : (⟨S64x1, .f32⟩ : BufTy).Contents (Elt F) → (⟨S64x2048, .f32⟩ : BufTy).Contents (Elt F)),
    StableHlo.binary main_v20 main_v14 main_v21 (mulf : (⟨S64x2048, .f32⟩ : BufTy).Contents (Elt F) → (⟨S64x2048, .f32⟩ : BufTy).Contents (Elt F) → (⟨S64x2048, .f32⟩ : BufTy).Contents (Elt F)),
    StableHlo.unary main_v10 main_v22 (broadcastInDim S64x2048 ![0, 1] bcast_S64x1_S64x2048_0_1 : (⟨S64x1, .f32⟩ : BufTy).Contents (Elt F) → (⟨S64x2048, .f32⟩ : BufTy).Contents (Elt F)),
    StableHlo.binary main_v12 main_v22 main_v23 (mulf : (⟨S64x2048, .f32⟩ : BufTy).Contents (Elt F) → (⟨S64x2048, .f32⟩ : BufTy).Contents (Elt F) → (⟨S64x2048, .f32⟩ : BufTy).Contents (Elt F)),
    StableHlo.binary main_v21 main_v23 main_v24 (addf : (⟨S64x2048, .f32⟩ : BufTy).Contents (Elt F) → (⟨S64x2048, .f32⟩ : BufTy).Contents (Elt F) → (⟨S64x2048, .f32⟩ : BufTy).Contents (Elt F)),
    StableHlo.unary main_v19 main_v25 (broadcastInDim S64x2048x1 ![0, 1] bcast_S64x2048_S64x2048x1_0_1 : (⟨S64x2048, .f32⟩ : BufTy).Contents (Elt F) → (⟨S64x2048x1, .f32⟩ : BufTy).Contents (Elt F)),
    StableHlo.unary main_v24 main_v26 (broadcastInDim S64x2048x1 ![0, 1] bcast_S64x2048_S64x2048x1_0_1 : (⟨S64x2048, .f32⟩ : BufTy).Contents (Elt F) → (⟨S64x2048x1, .f32⟩ : BufTy).Contents (Elt F)),
    StableHlo.binary main_v25 main_v26 main_v27 ((fun a b => concatenate S64x2048x2 2 [⟨S64x2048x1, a⟩, ⟨S64x2048x1, b⟩] concatenates_S64x2048x1_S64x2048x1_S64x2048x2_d2) : (⟨S64x2048x1, .f32⟩ : BufTy).Contents (Elt F) → (⟨S64x2048x1, .f32⟩ : BufTy).Contents (Elt F) → (⟨S64x2048x2, .f32⟩ : BufTy).Contents (Elt F)),
    StableHlo.nullary main_cst_0 (constant S_ .f32 0x3F800000#32),
    StableHlo.unary main_cst_0 main_v28 (broadcastInDim S64x2048x2 ![] bcast_S_S64x2048x2 : (⟨S_, .f32⟩ : BufTy).Contents (Elt F) → (⟨S64x2048x2, .f32⟩ : BufTy).Contents (Elt F)),
    StableHlo.binary main_v27 main_v28 main_v29 (Host.divf : (⟨S64x2048x2, .f32⟩ : BufTy).Contents (Elt F) → (⟨S64x2048x2, .f32⟩ : BufTy).Contents (Elt F) → (⟨S64x2048x2, .f32⟩ : BufTy).Contents (Elt F)),
    StableHlo.binary main_v29 main_arg3 main_v30 ((fun l r => Host.dotGeneral dot_S64x2048x2_S64x2x256_S64x2048x256_2_1_1_2_0_0 none l r) : (⟨S64x2048x2, .f32⟩ : BufTy).Contents (Elt F) → (⟨S64x2x256, .f32⟩ : BufTy).Contents (Elt F) → (⟨S64x2048x256, .f32⟩ : BufTy).Contents (Elt F)),
    StableHlo.unary main_arg4 main_v31 (broadcastInDim S64x1x256 ![0, 2] bcast_S64x256_S64x1x256_0_2 : (⟨S64x256, .f32⟩ : BufTy).Contents (Elt F) → (⟨S64x1x256, .f32⟩ : BufTy).Contents (Elt F)),
    StableHlo.unary main_v31 main_v32 (broadcastInDim S64x2048x256 ![0, 1, 2] bcast_S64x1x256_S64x2048x256_0_1_2 : (⟨S64x1x256, .f32⟩ : BufTy).Contents (Elt F) → (⟨S64x2048x256, .f32⟩ : BufTy).Contents (Elt F)),
    StableHlo.binary main_v30 main_v32 main_v33 (addf : (⟨S64x2048x256, .f32⟩ : BufTy).Contents (Elt F) → (⟨S64x2048x256, .f32⟩ : BufTy).Contents (Elt F) → (⟨S64x2048x256, .f32⟩ : BufTy).Contents (Elt F)),
    StableHlo.nullary main_cst_1 (constant S_ .f32 0x00000000#32),
    StableHlo.unary main_cst_1 main_v34 (broadcastInDim S64x2048x256 ![] bcast_S_S64x2048x256 : (⟨S_, .f32⟩ : BufTy).Contents (Elt F) → (⟨S64x2048x256, .f32⟩ : BufTy).Contents (Elt F)),
    StableHlo.binary main_v33 main_v34 main_v35 (maximumf : (⟨S64x2048x256, .f32⟩ : BufTy).Contents (Elt F) → (⟨S64x2048x256, .f32⟩ : BufTy).Contents (Elt F) → (⟨S64x2048x256, .f32⟩ : BufTy).Contents (Elt F)),
    StableHlo.binary main_v35 main_arg5 main_v36 ((fun l r => Host.dotGeneral dot_S64x2048x256_S64x256x256_S64x2048x256_2_1_1_2_0_0 none l r) : (⟨S64x2048x256, .f32⟩ : BufTy).Contents (Elt F) → (⟨S64x256x256, .f32⟩ : BufTy).Contents (Elt F) → (⟨S64x2048x256, .f32⟩ : BufTy).Contents (Elt F)),
    StableHlo.unary main_arg6 main_v37 (broadcastInDim S64x1x256 ![0, 2] bcast_S64x256_S64x1x256_0_2 : (⟨S64x256, .f32⟩ : BufTy).Contents (Elt F) → (⟨S64x1x256, .f32⟩ : BufTy).Contents (Elt F)),
    StableHlo.unary main_v37 main_v38 (broadcastInDim S64x2048x256 ![0, 1, 2] bcast_S64x1x256_S64x2048x256_0_1_2 : (⟨S64x1x256, .f32⟩ : BufTy).Contents (Elt F) → (⟨S64x2048x256, .f32⟩ : BufTy).Contents (Elt F)),
    StableHlo.binary main_v36 main_v38 main_v39 (addf : (⟨S64x2048x256, .f32⟩ : BufTy).Contents (Elt F) → (⟨S64x2048x256, .f32⟩ : BufTy).Contents (Elt F) → (⟨S64x2048x256, .f32⟩ : BufTy).Contents (Elt F)),
    StableHlo.nullary main_cst_2 (constant S_ .f32 0x00000000#32),
    StableHlo.unary main_cst_2 main_v40 (broadcastInDim S64x2048x256 ![] bcast_S_S64x2048x256 : (⟨S_, .f32⟩ : BufTy).Contents (Elt F) → (⟨S64x2048x256, .f32⟩ : BufTy).Contents (Elt F)),
    StableHlo.binary main_v39 main_v40 main_v41 (maximumf : (⟨S64x2048x256, .f32⟩ : BufTy).Contents (Elt F) → (⟨S64x2048x256, .f32⟩ : BufTy).Contents (Elt F) → (⟨S64x2048x256, .f32⟩ : BufTy).Contents (Elt F)),
    StableHlo.binary main_v41 main_arg7 main_v42 ((fun l r => Host.dotGeneral dot_S64x2048x256_S64x256x4_S64x2048x4_2_1_1_2_0_0 none l r) : (⟨S64x2048x256, .f32⟩ : BufTy).Contents (Elt F) → (⟨S64x256x4, .f32⟩ : BufTy).Contents (Elt F) → (⟨S64x2048x4, .f32⟩ : BufTy).Contents (Elt F)),
    StableHlo.unary main_arg8 main_v43 (broadcastInDim S64x1x4 ![0, 2] bcast_S64x4_S64x1x4_0_2 : (⟨S64x4, .f32⟩ : BufTy).Contents (Elt F) → (⟨S64x1x4, .f32⟩ : BufTy).Contents (Elt F)),
    StableHlo.unary main_v43 main_v44 (broadcastInDim S64x2048x4 ![0, 1, 2] bcast_S64x1x4_S64x2048x4_0_1_2 : (⟨S64x1x4, .f32⟩ : BufTy).Contents (Elt F) → (⟨S64x2048x4, .f32⟩ : BufTy).Contents (Elt F)),
    StableHlo.binary main_v42 main_v44 main_v45 (addf : (⟨S64x2048x4, .f32⟩ : BufTy).Contents (Elt F) → (⟨S64x2048x4, .f32⟩ : BufTy).Contents (Elt F) → (⟨S64x2048x4, .f32⟩ : BufTy).Contents (Elt F)) ]

/-- The printed @main is the sequence of those operations. -/
theorem main_eq (c : Dev nD) : main (F := F) c = seq ops := rfl

/-- No buffer and no semaphore of the program is scoped. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig := by
  simp only [List.Forall]
  refine ⟨nullary_bufs_sub .., unary_bufs_sub .., unary_bufs_sub .., binary_bufs_sub .., unary_bufs_sub .., unary_bufs_sub ..,
    binary_bufs_sub .., unary_bufs_sub .., unary_bufs_sub .., reshape_bufs_sub .., unary_bufs_sub .., reshape_bufs_sub ..,
    unary_bufs_sub .., reshape_bufs_sub .., unary_bufs_sub .., reshape_bufs_sub .., unary_bufs_sub .., binary_bufs_sub ..,
    unary_bufs_sub .., binary_bufs_sub .., binary_bufs_sub .., unary_bufs_sub .., binary_bufs_sub .., unary_bufs_sub ..,
    binary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., nullary_bufs_sub .., unary_bufs_sub .., binary_bufs_sub .., binary_bufs_sub .., unary_bufs_sub ..,
    unary_bufs_sub .., binary_bufs_sub ..⟩

/-- The fold of the fifty operations, read at the result buffer, is `refTerm` of the launch contents of the nine
    arguments: each operation's result is its function of its operands' results, substituted from the last backwards. -/
theorem result_eq (m : (ℓ : Loc nD τ sig) → Buf (Elt F) ℓ) (c : Dev nD) :
    after (ops (F := F)) (launchContents m c) (Proc.devRef .tc main_v45)
      = refTerm (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) := by
  after_results_simp
  rfl

/-- On every device, from any memory with zero counters: every weakly fair execution of the reference's @main
    terminates with the result buffer at `refTerm` of the arguments' launch contents, and the arguments unchanged
    (no operation writes an argument buffer, so the fold leaves each at its launch contents). -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v45)
        = refTerm (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v45).trans (result_eq m c),
      (h c main_arg0).trans (by after_results_simp), (h c main_arg1).trans (by after_results_simp),
      (h c main_arg2).trans (by after_results_simp), (h c main_arg3).trans (by after_results_simp),
      (h c main_arg4).trans (by after_results_simp), (h c main_arg5).trans (by after_results_simp),
      (h c main_arg6).trans (by after_results_simp), (h c main_arg7).trans (by after_results_simp),
      (h c main_arg8).trans (by after_results_simp)⟩)
    (run_seq scopedRefs_eq scopedSems_eq defs main (fun _ => ops) main_eq (fun _ => ops_sub) m ρ)

end Cert.ReferenceIdeal.RefValue

end
-- ==== Proof.RefRead.lean ====
/-
  The reference's result term, read index by index, is the specification.
-/
import proofs.«123930_g18605798326295_fold_wed_c4_331_5_alg».proof.Proof.RefTerm
import proofs.«123930_g18605798326295_fold_wed_c4_331_5_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx

/-! ## The stages read at an index

Each stage of the reference's result is read at an index given by its coordinates: a broadcast reads its operand at the
coordinates on the axes it keeps (zero on a unit axis), a slice at the coordinates shifted by its offsets, a reshape at
the index with the same row-major position, a concatenation along the last axis in the piece that holds the coordinate,
and a batched contraction as the sum over its one contracted axis. -/

/-- The translated point at an index: the query point's coordinate less the field's position's. -/
theorem delta_ix3 (a0 : FVec Ideal S64x2048x2 .f32) (a1 : FVec Ideal S64x2 .f32) (e : Fin 64) (p : Fin 2048) (k : Fin 2) :
    delta (F := Ideal) a0 a1 (ix3 e p k) = a0 (ix3 e p k) - a1 (ix2 e k) := by
  unfold delta
  rw [subf_apply]
  congr 1
  refine (broadcastInDim_apply _ _ _ (ix3 e p k) (ix3 e (0 : Fin 1) k) (fun a => match a with
    | ⟨0, _⟩ => by show e.val = if (64 : Nat) = 1 then 0 else e.val; rw [if_neg (by decide)]
    | ⟨1, _⟩ => by show 0 = if (1 : Nat) = 1 then 0 else p.val; rw [if_pos rfl]
    | ⟨2, _⟩ => by show k.val = if (2 : Nat) = 1 then 0 else k.val; rw [if_neg (by decide)])).trans ?_
  exact broadcastInDim_apply _ _ a1 (ix3 e (0 : Fin 1) k) (ix2 e k) (fun a => match a with
    | ⟨0, _⟩ => by show e.val = if (64 : Nat) = 1 then 0 else e.val; rw [if_neg (by decide)]
    | ⟨1, _⟩ => by show k.val = if (2 : Nat) = 1 then 0 else k.val; rw [if_neg (by decide)])

/-- The two-element literal table read at a coordinate. -/
theorem litVec_ix1 (k : Fin 2) :
    (fun i => FloatOps.ofBits (F := Ideal) .f32 (lit0 (S2.rowMajor i))) (ix1 k) = Ideal.ofBits .f32 (lit0 k) := by
  show Ideal.ofBits .f32 (lit0 (S2.rowMajor (ix1 k))) = _
  have h : S2.rowMajor (ix1 k) = k := Fin.ext (by rw [Shape.rowMajor_val_one])
  rw [h]

/-- The conjugate orientation at an index: the orientation's component times the table's entry. -/
theorem conj_ix3 (a2 : FVec Ideal S64x2 .f32) (e : Fin 64) (k : Fin 2) :
    conj (F := Ideal) a2 (ix3 e (0 : Fin 1) k) = a2 (ix2 e k) * Ideal.ofBits .f32 (lit0 k) := by
  unfold conj
  refine (broadcastInDim_apply _ _ _ (ix3 e (0 : Fin 1) k) (ix2 e k) (fun a => match a with
    | ⟨0, _⟩ => by show e.val = if (64 : Nat) = 1 then 0 else e.val; rw [if_neg (by decide)]
    | ⟨1, _⟩ => by show k.val = if (2 : Nat) = 1 then 0 else k.val; rw [if_neg (by decide)])).trans ?_
  rw [mulf_apply]
  congr 1
  refine (broadcastInDim_apply _ _ _ (ix2 e k) (ix2 (0 : Fin 1) k) (fun a => match a with
    | ⟨0, _⟩ => by show 0 = if (1 : Nat) = 1 then 0 else e.val; rw [if_pos rfl]
    | ⟨1, _⟩ => by show k.val = if (2 : Nat) = 1 then 0 else k.val; rw [if_neg (by decide)])).trans ?_
  refine (broadcastInDim_apply _ _ _ (ix2 (0 : Fin 1) k) (ix1 k) (fun a => match a with
    | ⟨0, _⟩ => by show k.val = if (2 : Nat) = 1 then 0 else k.val; rw [if_neg (by decide)])).trans ?_
  exact litVec_ix1 k

/-- The conjugate's real component: the orientation's first component times one. -/
theorem cre_ix2 (a2 : FVec Ideal S64x2 .f32) (e : Fin 64) :
    cre (F := Ideal) a2 (ix2 e (0 : Fin 1)) = a2 (ix2 e (0 : Fin 2)) * 1 := by
  unfold cre
  refine (shapeCast_apply _ _ (ix2 e (0 : Fin 1)) (ix3 e (0 : Fin 1) (0 : Fin 1))
    (by rewrite [Shape.rowMajor_val_three, Shape.rowMajor_val_two]
        show (e.val * 1 + 0) * 1 + 0 = e.val * 1 + 0; omega)).trans ?_
  refine (extractStridedSlice_apply _ _ _ (ix3 e (0 : Fin 1) (0 : Fin 1)) (ix3 e (0 : Fin 1) (0 : Fin 2)) (fun a => match a with
    | ⟨0, _⟩ => by show e.val = 0 + e.val; omega
    | ⟨1, _⟩ => by show 0 = 0 + 0; omega
    | ⟨2, _⟩ => by show 0 = 0 + 0; omega)).trans ?_
  rw [conj_ix3]
  show _ * Ideal.ofBits .f32 0x3F800000#32 = _
  rw [Cert.FieldSpec.ofBits_one]

/-- The conjugate's imaginary component: the orientation's second component times minus one. -/
theorem cim_ix2 (a2 : FVec Ideal S64x2 .f32) (e : Fin 64) :
    cim (F := Ideal) a2 (ix2 e (0 : Fin 1)) = a2 (ix2 e (1 : Fin 2)) * (-1) := by
  unfold cim
  refine (shapeCast_apply _ _ (ix2 e (0 : Fin 1)) (ix3 e (0 : Fin 1) (0 : Fin 1))
    (by rewrite [Shape.rowMajor_val_three, Shape.rowMajor_val_two]
        show (e.val * 1 + 0) * 1 + 0 = e.val * 1 + 0; omega)).trans ?_
  refine (extractStridedSlice_apply _ _ _ (ix3 e (0 : Fin 1) (0 : Fin 1)) (ix3 e (0 : Fin 1) (1 : Fin 2)) (fun a => match a with
    | ⟨0, _⟩ => by show e.val = 0 + e.val; omega
    | ⟨1, _⟩ => by show 0 = 0 + 0; omega
    | ⟨2, _⟩ => by show 1 = 1 + 0; omega)).trans ?_
  rw [conj_ix3]
  show _ * Ideal.ofBits .f32 0xBF800000#32 = _
  rw [Cert.FieldSpec.ofBits_negOne]

/-- The translated point's real component. -/
theorem dre_ix2 (a0 : FVec Ideal S64x2048x2 .f32) (a1 : FVec Ideal S64x2 .f32) (e : Fin 64) (p : Fin 2048) :
    dre (F := Ideal) a0 a1 (ix2 e p) = a0 (ix3 e p (0 : Fin 2)) - a1 (ix2 e (0 : Fin 2)) := by
  unfold dre
  refine (shapeCast_apply _ _ (ix2 e p) (ix3 e p (0 : Fin 1))
    (by rewrite [Shape.rowMajor_val_three, Shape.rowMajor_val_two]
        show (e.val * 2048 + p.val) * 1 + 0 = e.val * 2048 + p.val; omega)).trans ?_
  refine (extractStridedSlice_apply _ _ _ (ix3 e p (0 : Fin 1)) (ix3 e p (0 : Fin 2)) (fun a => match a with
    | ⟨0, _⟩ => by show e.val = 0 + e.val; omega
    | ⟨1, _⟩ => by show p.val = 0 + p.val; omega
    | ⟨2, _⟩ => by show 0 = 0 + 0; omega)).trans ?_
  exact delta_ix3 a0 a1 e p 0

/-- The translated point's imaginary component. -/
theorem dim_ix2 (a0 : FVec Ideal S64x2048x2 .f32) (a1 : FVec Ideal S64x2 .f32) (e : Fin 64) (p : Fin 2048) :
    dim (F := Ideal) a0 a1 (ix2 e p) = a0 (ix3 e p (1 : Fin 2)) - a1 (ix2 e (1 : Fin 2)) := by
  unfold dim
  refine (shapeCast_apply _ _ (ix2 e p) (ix3 e p (0 : Fin 1))
    (by rewrite [Shape.rowMajor_val_three, Shape.rowMajor_val_two]
        show (e.val * 2048 + p.val) * 1 + 0 = e.val * 2048 + p.val; omega)).trans ?_
  refine (extractStridedSlice_apply _ _ _ (ix3 e p (0 : Fin 1)) (ix3 e p (1 : Fin 2)) (fun a => match a with
    | ⟨0, _⟩ => by show e.val = 0 + e.val; omega
    | ⟨1, _⟩ => by show p.val = 0 + p.val; omega
    | ⟨2, _⟩ => by show 1 = 1 + 0; omega)).trans ?_
  exact delta_ix3 a0 a1 e p 1

/-- A per-field array spread over the points reads its field's entry. -/
theorem spread_ix2 (x : FVec Ideal S64x1 .f32) (e : Fin 64) (p : Fin 2048) :
    broadcastInDim S64x2048 ![0, 1] bcast_S64x1_S64x2048_0_1 x (ix2 e p) = x (ix2 e (0 : Fin 1)) :=
  broadcastInDim_apply _ _ x (ix2 e p) (ix2 e (0 : Fin 1)) (fun a => match a with
    | ⟨0, _⟩ => by show e.val = if (64 : Nat) = 1 then 0 else e.val; rw [if_neg (by decide)]
    | ⟨1, _⟩ => by show 0 = if (1 : Nat) = 1 then 0 else p.val; rw [if_pos rfl])

/-- An array over fields and points given a trailing unit axis reads the same entry. -/
theorem unitAxis_ix3 (x : FVec Ideal S64x2048 .f32) (e : Fin 64) (p : Fin 2048) :
    broadcastInDim S64x2048x1 ![0, 1] bcast_S64x2048_S64x2048x1_0_1 x (ix3 e p (0 : Fin 1)) = x (ix2 e p) :=
  broadcastInDim_apply _ _ x (ix3 e p (0 : Fin 1)) (ix2 e p) (fun a => match a with
    | ⟨0, _⟩ => by show e.val = if (64 : Nat) = 1 then 0 else e.val; rw [if_neg (by decide)]
    | ⟨1, _⟩ => by show p.val = if (2048 : Nat) = 1 then 0 else p.val; rw [if_neg (by decide)])

/-- The host's division at an index is the extended reals' division of the entries. -/
theorem hostDivf_ix {s : Shape} {φ : FTy} (x y : FVec Ideal s φ) (i : s.Idx) :
    Host.divf x y i = Ideal.div (x i) (y i) := rfl

/-- The unit radius spread over the points' array is one everywhere. -/
theorem ones_ix (i : S64x2048x2.Idx) :
    broadcastInDim S64x2048x2 ![] bcast_S_S64x2048x2 (constant (F := Ideal) S_ .f32 0x3F800000#32) i = 1 :=
  (broadcastInDim_apply _ _ _ i ix0 (fun a => a.elim0)).trans
    ((constant_apply _ _).trans Cert.FieldSpec.ofBits_one)

/-- The zero the hidden layers are clipped at, spread over a layer's array, is zero everywhere. -/
theorem zeros_ix (i : S64x2048x256.Idx) :
    broadcastInDim S64x2048x256 ![] bcast_S_S64x2048x256 (constant (F := Ideal) S_ .f32 0x00000000#32) i = 0 :=
  (broadcastInDim_apply _ _ _ i ix0 (fun a => a.elim0)).trans
    ((constant_apply _ _).trans Ideal.ofBits_zero_f32)

/-- The local point's real component is the rotation's. -/
theorem localPts_ix3_0 (a0 : FVec Ideal S64x2048x2 .f32) (a1 a2 : FVec Ideal S64x2 .f32) (e : Fin 64) (p : Fin 2048) :
    localPts (F := Ideal) a0 a1 a2 (ix3 e p (0 : Fin 2)) = Cert.FieldSpec.loc a0 a1 a2 e p 0 := by
  unfold localPts
  refine (hostDivf_ix _ _ _).trans ?_
  refine (congrArg₂ Ideal.div
    (concatenate_pair_apply_left (t := S64x2048x2) (s₁ := S64x2048x1) (s₂ := S64x2048x1) (2 : Fin 3) _ _ _ (ix3 e p (0 : Fin 2)) rfl (ix3 e p (0 : Fin 1))
      (fun b => match b with | ⟨0, _⟩ => rfl | ⟨1, _⟩ => rfl | ⟨2, _⟩ => rfl))
    (ones_ix _)).trans ?_
  rw [unitAxis_ix3, subf_apply, mulf_apply, mulf_apply, spread_ix2, spread_ix2, cre_ix2, cim_ix2, dre_ix2, dim_ix2]
  exact Cert.FieldSpec.rot_conj_0 _ _ _ _

/-- The local point's imaginary component is the rotation's. -/
theorem localPts_ix3_1 (a0 : FVec Ideal S64x2048x2 .f32) (a1 a2 : FVec Ideal S64x2 .f32) (e : Fin 64) (p : Fin 2048) :
    localPts (F := Ideal) a0 a1 a2 (ix3 e p (1 : Fin 2)) = Cert.FieldSpec.loc a0 a1 a2 e p 1 := by
  unfold localPts
  refine (hostDivf_ix _ _ _).trans ?_
  refine (congrArg₂ Ideal.div
    (concatenate_pair_apply_right (t := S64x2048x2) (s₁ := S64x2048x1) (s₂ := S64x2048x1) (2 : Fin 3) _ _ _ (ix3 e p (1 : Fin 2)) rfl rfl (ix3 e p (0 : Fin 1))
      (fun b => match b with
        | ⟨0, _⟩ => fun _ => rfl
        | ⟨1, _⟩ => fun _ => rfl
        | ⟨2, _⟩ => fun h => absurd rfl h)
      rfl)
    (ones_ix _)).trans ?_
  rw [unitAxis_ix3, addf_apply, mulf_apply, mulf_apply, spread_ix2, spread_ix2, cre_ix2, cim_ix2, dre_ix2, dim_ix2]
  exact Cert.FieldSpec.rot_conj_1 _ _ _ _

/-- The points in a field's local frame, at every index. -/
theorem localPts_ix3 (a0 : FVec Ideal S64x2048x2 .f32) (a1 a2 : FVec Ideal S64x2 .f32) (e : Fin 64) (p : Fin 2048) (k : Fin 2) :
    localPts (F := Ideal) a0 a1 a2 (ix3 e p k) = Cert.FieldSpec.loc a0 a1 a2 e p k := by
  match k with
  | ⟨0, _⟩ => exact localPts_ix3_0 a0 a1 a2 e p
  | ⟨1, _⟩ => exact localPts_ix3_1 a0 a1 a2 e p

/-! ## The three batched contractions

Each has the field as its batch axis on both sides, contracts the left operand's last axis with the right operand's
middle axis, and keeps the left operand's points and the right operand's columns: per operand axis, the coordinate the
contraction's index map reads, and then the element as the sum over the contracted coordinate. -/

/-! ### The first layer's contraction -/

theorem lhs_dot0_0 (i : S64x2048x256.Idx) (q : dot_S64x2048x2_S64x2x256_S64x2048x256_2_1_1_2_0_0.contr.Idx) :
    (dot_S64x2048x2_S64x2x256_S64x2048x256_2_1_1_2_0_0.lhsIdx i q 0).val = (i 0).val := by
  unfold DotDims.lhsIdx
  rw [dif_pos (show (0 : Fin S64x2048x2.rank) ∈ dot_S64x2048x2_S64x2x256_S64x2048x256_2_1_1_2_0_0.lhsBatch by decide)]
  rfl
theorem lhs_dot0_1 (i : S64x2048x256.Idx) (q : dot_S64x2048x2_S64x2x256_S64x2048x256_2_1_1_2_0_0.contr.Idx) :
    (dot_S64x2048x2_S64x2x256_S64x2048x256_2_1_1_2_0_0.lhsIdx i q 1).val = (i 1).val := by
  unfold DotDims.lhsIdx
  rw [dif_neg (show ¬(1 : Fin S64x2048x2.rank) ∈ dot_S64x2048x2_S64x2x256_S64x2048x256_2_1_1_2_0_0.lhsBatch by decide), dif_pos (show (1 : Fin S64x2048x2.rank) ∈ dot_S64x2048x2_S64x2x256_S64x2048x256_2_1_1_2_0_0.lhsNonContracting by decide)]
  rfl
theorem lhs_dot0_2 (i : S64x2048x256.Idx) (q : dot_S64x2048x2_S64x2x256_S64x2048x256_2_1_1_2_0_0.contr.Idx) :
    (dot_S64x2048x2_S64x2x256_S64x2048x256_2_1_1_2_0_0.lhsIdx i q 2).val = (q ⟨0, by decide⟩).val :=
  dot_S64x2048x2_S64x2x256_S64x2048x256_2_1_1_2_0_0.lhsIdx_val_of_single rfl i q
theorem rhs_dot0_0 (i : S64x2048x256.Idx) (q : dot_S64x2048x2_S64x2x256_S64x2048x256_2_1_1_2_0_0.contr.Idx) :
    (dot_S64x2048x2_S64x2x256_S64x2048x256_2_1_1_2_0_0.rhsIdx i q 0).val = (i 0).val := by
  unfold DotDims.rhsIdx
  rw [dif_pos (show (0 : Fin S64x2x256.rank) ∈ dot_S64x2048x2_S64x2x256_S64x2048x256_2_1_1_2_0_0.rhsBatch by decide)]
  rfl
theorem rhs_dot0_1 (i : S64x2048x256.Idx) (q : dot_S64x2048x2_S64x2x256_S64x2048x256_2_1_1_2_0_0.contr.Idx) :
    (dot_S64x2048x2_S64x2x256_S64x2048x256_2_1_1_2_0_0.rhsIdx i q 1).val = (q ⟨0, by decide⟩).val :=
  dot_S64x2048x2_S64x2x256_S64x2048x256_2_1_1_2_0_0.rhsIdx_val_of_single rfl i q
theorem rhs_dot0_2 (i : S64x2048x256.Idx) (q : dot_S64x2048x2_S64x2x256_S64x2048x256_2_1_1_2_0_0.contr.Idx) :
    (dot_S64x2048x2_S64x2x256_S64x2048x256_2_1_1_2_0_0.rhsIdx i q 2).val = (i 2).val := by
  unfold DotDims.rhsIdx
  rw [dif_neg (show ¬(2 : Fin S64x2x256.rank) ∈ dot_S64x2048x2_S64x2x256_S64x2048x256_2_1_1_2_0_0.rhsBatch by decide), dif_pos (show (2 : Fin S64x2x256.rank) ∈ dot_S64x2048x2_S64x2x256_S64x2048x256_2_1_1_2_0_0.rhsNonContracting by decide)]
  rfl

/-- The batched contraction at an index: for the field `e`, the sum over the contracted axis of the left operand's
    row `p` times the right operand's column `j`. -/
theorem dot0_apply (x : FVec Ideal S64x2048x2 .f32) (w : FVec Ideal S64x2x256 .f32) (e : Fin 64) (p : Fin 2048) (j : Fin 256) :
    Host.dotGeneral dot_S64x2048x2_S64x2x256_S64x2048x256_2_1_1_2_0_0 none x w (ix3 e p j) = ∑ k : Fin 2, x (ix3 e p k) * w (ix3 e k j) := by
  simp only [Host.dotGeneral]
  rw [Ideal.dotGeneral_apply, ← Equiv.sum_comp (ValueIdx.contrEquiv1 dot_S64x2048x2_S64x2x256_S64x2048x256_2_1_1_2_0_0 2 rfl rfl).symm]
  refine Finset.sum_congr rfl fun k _ => ?_
  have hk := ValueIdx.contrEquiv1_symm_val dot_S64x2048x2_S64x2x256_S64x2048x256_2_1_1_2_0_0 2 rfl rfl k
  have el : dot_S64x2048x2_S64x2x256_S64x2048x256_2_1_1_2_0_0.lhsIdx (ix3 e p j) ((ValueIdx.contrEquiv1 dot_S64x2048x2_S64x2x256_S64x2048x256_2_1_1_2_0_0 2 rfl rfl).symm k) = ix3 e p k :=
    funext fun a => Fin.ext (by
      match a with
      | ⟨0, _⟩ => exact lhs_dot0_0 _ _
      | ⟨1, _⟩ => exact lhs_dot0_1 _ _
      | ⟨2, _⟩ => exact (lhs_dot0_2 _ _).trans hk)
  have er : dot_S64x2048x2_S64x2x256_S64x2048x256_2_1_1_2_0_0.rhsIdx (ix3 e p j) ((ValueIdx.contrEquiv1 dot_S64x2048x2_S64x2x256_S64x2048x256_2_1_1_2_0_0 2 rfl rfl).symm k) = ix3 e k j :=
    funext fun a => Fin.ext (by
      match a with
      | ⟨0, _⟩ => exact rhs_dot0_0 _ _
      | ⟨1, _⟩ => exact (rhs_dot0_1 _ _).trans hk
      | ⟨2, _⟩ => exact rhs_dot0_2 _ _)
  rw [el, er]

/-! ### The second layer's contraction -/

theorem lhs_dot1_0 (i : S64x2048x256.Idx) (q : dot_S64x2048x256_S64x256x256_S64x2048x256_2_1_1_2_0_0.contr.Idx) :
    (dot_S64x2048x256_S64x256x256_S64x2048x256_2_1_1_2_0_0.lhsIdx i q 0).val = (i 0).val := by
  unfold DotDims.lhsIdx
  rw [dif_pos (show (0 : Fin S64x2048x256.rank) ∈ dot_S64x2048x256_S64x256x256_S64x2048x256_2_1_1_2_0_0.lhsBatch by decide)]
  rfl
theorem lhs_dot1_1 (i : S64x2048x256.Idx) (q : dot_S64x2048x256_S64x256x256_S64x2048x256_2_1_1_2_0_0.contr.Idx) :
    (dot_S64x2048x256_S64x256x256_S64x2048x256_2_1_1_2_0_0.lhsIdx i q 1).val = (i 1).val := by
  unfold DotDims.lhsIdx
  rw [dif_neg (show ¬(1 : Fin S64x2048x256.rank) ∈ dot_S64x2048x256_S64x256x256_S64x2048x256_2_1_1_2_0_0.lhsBatch by decide), dif_pos (show (1 : Fin S64x2048x256.rank) ∈ dot_S64x2048x256_S64x256x256_S64x2048x256_2_1_1_2_0_0.lhsNonContracting by decide)]
  rfl
theorem lhs_dot1_2 (i : S64x2048x256.Idx) (q : dot_S64x2048x256_S64x256x256_S64x2048x256_2_1_1_2_0_0.contr.Idx) :
    (dot_S64x2048x256_S64x256x256_S64x2048x256_2_1_1_2_0_0.lhsIdx i q 2).val = (q ⟨0, by decide⟩).val :=
  dot_S64x2048x256_S64x256x256_S64x2048x256_2_1_1_2_0_0.lhsIdx_val_of_single rfl i q
theorem rhs_dot1_0 (i : S64x2048x256.Idx) (q : dot_S64x2048x256_S64x256x256_S64x2048x256_2_1_1_2_0_0.contr.Idx) :
    (dot_S64x2048x256_S64x256x256_S64x2048x256_2_1_1_2_0_0.rhsIdx i q 0).val = (i 0).val := by
  unfold DotDims.rhsIdx
  rw [dif_pos (show (0 : Fin S64x256x256.rank) ∈ dot_S64x2048x256_S64x256x256_S64x2048x256_2_1_1_2_0_0.rhsBatch by decide)]
  rfl
theorem rhs_dot1_1 (i : S64x2048x256.Idx) (q : dot_S64x2048x256_S64x256x256_S64x2048x256_2_1_1_2_0_0.contr.Idx) :
    (dot_S64x2048x256_S64x256x256_S64x2048x256_2_1_1_2_0_0.rhsIdx i q 1).val = (q ⟨0, by decide⟩).val :=
  dot_S64x2048x256_S64x256x256_S64x2048x256_2_1_1_2_0_0.rhsIdx_val_of_single rfl i q
theorem rhs_dot1_2 (i : S64x2048x256.Idx) (q : dot_S64x2048x256_S64x256x256_S64x2048x256_2_1_1_2_0_0.contr.Idx) :
    (dot_S64x2048x256_S64x256x256_S64x2048x256_2_1_1_2_0_0.rhsIdx i q 2).val = (i 2).val := by
  unfold DotDims.rhsIdx
  rw [dif_neg (show ¬(2 : Fin S64x256x256.rank) ∈ dot_S64x2048x256_S64x256x256_S64x2048x256_2_1_1_2_0_0.rhsBatch by decide), dif_pos (show (2 : Fin S64x256x256.rank) ∈ dot_S64x2048x256_S64x256x256_S64x2048x256_2_1_1_2_0_0.rhsNonContracting by decide)]
  rfl

/-- The batched contraction at an index: for the field `e`, the sum over the contracted axis of the left operand's
    row `p` times the right operand's column `j`. -/
theorem dot1_apply (x : FVec Ideal S64x2048x256 .f32) (w : FVec Ideal S64x256x256 .f32) (e : Fin 64) (p : Fin 2048) (j : Fin 256) :
    Host.dotGeneral dot_S64x2048x256_S64x256x256_S64x2048x256_2_1_1_2_0_0 none x w (ix3 e p j) = ∑ k : Fin 256, x (ix3 e p k) * w (ix3 e k j) := by
  simp only [Host.dotGeneral]
  rw [Ideal.dotGeneral_apply, ← Equiv.sum_comp (ValueIdx.contrEquiv1 dot_S64x2048x256_S64x256x256_S64x2048x256_2_1_1_2_0_0 256 rfl rfl).symm]
  refine Finset.sum_congr rfl fun k _ => ?_
  have hk := ValueIdx.contrEquiv1_symm_val dot_S64x2048x256_S64x256x256_S64x2048x256_2_1_1_2_0_0 256 rfl rfl k
  have el : dot_S64x2048x256_S64x256x256_S64x2048x256_2_1_1_2_0_0.lhsIdx (ix3 e p j) ((ValueIdx.contrEquiv1 dot_S64x2048x256_S64x256x256_S64x2048x256_2_1_1_2_0_0 256 rfl rfl).symm k) = ix3 e p k :=
    funext fun a => Fin.ext (by
      match a with
      | ⟨0, _⟩ => exact lhs_dot1_0 _ _
      | ⟨1, _⟩ => exact lhs_dot1_1 _ _
      | ⟨2, _⟩ => exact (lhs_dot1_2 _ _).trans hk)
  have er : dot_S64x2048x256_S64x256x256_S64x2048x256_2_1_1_2_0_0.rhsIdx (ix3 e p j) ((ValueIdx.contrEquiv1 dot_S64x2048x256_S64x256x256_S64x2048x256_2_1_1_2_0_0 256 rfl rfl).symm k) = ix3 e k j :=
    funext fun a => Fin.ext (by
      match a with
      | ⟨0, _⟩ => exact rhs_dot1_0 _ _
      | ⟨1, _⟩ => exact (rhs_dot1_1 _ _).trans hk
      | ⟨2, _⟩ => exact rhs_dot1_2 _ _)
  rw [el, er]

/-! ### The last layer's contraction -/

theorem lhs_dot2_0 (i : S64x2048x4.Idx) (q : dot_S64x2048x256_S64x256x4_S64x2048x4_2_1_1_2_0_0.contr.Idx) :
    (dot_S64x2048x256_S64x256x4_S64x2048x4_2_1_1_2_0_0.lhsIdx i q 0).val = (i 0).val := by
  unfold DotDims.lhsIdx
  rw [dif_pos (show (0 : Fin S64x2048x256.rank) ∈ dot_S64x2048x256_S64x256x4_S64x2048x4_2_1_1_2_0_0.lhsBatch by decide)]
  rfl
theorem lhs_dot2_1 (i : S64x2048x4.Idx) (q : dot_S64x2048x256_S64x256x4_S64x2048x4_2_1_1_2_0_0.contr.Idx) :
    (dot_S64x2048x256_S64x256x4_S64x2048x4_2_1_1_2_0_0.lhsIdx i q 1).val = (i 1).val := by
  unfold DotDims.lhsIdx
  rw [dif_neg (show ¬(1 : Fin S64x2048x256.rank) ∈ dot_S64x2048x256_S64x256x4_S64x2048x4_2_1_1_2_0_0.lhsBatch by decide), dif_pos (show (1 : Fin S64x2048x256.rank) ∈ dot_S64x2048x256_S64x256x4_S64x2048x4_2_1_1_2_0_0.lhsNonContracting by decide)]
  rfl
theorem lhs_dot2_2 (i : S64x2048x4.Idx) (q : dot_S64x2048x256_S64x256x4_S64x2048x4_2_1_1_2_0_0.contr.Idx) :
    (dot_S64x2048x256_S64x256x4_S64x2048x4_2_1_1_2_0_0.lhsIdx i q 2).val = (q ⟨0, by decide⟩).val :=
  dot_S64x2048x256_S64x256x4_S64x2048x4_2_1_1_2_0_0.lhsIdx_val_of_single rfl i q
theorem rhs_dot2_0 (i : S64x2048x4.Idx) (q : dot_S64x2048x256_S64x256x4_S64x2048x4_2_1_1_2_0_0.contr.Idx) :
    (dot_S64x2048x256_S64x256x4_S64x2048x4_2_1_1_2_0_0.rhsIdx i q 0).val = (i 0).val := by
  unfold DotDims.rhsIdx
  rw [dif_pos (show (0 : Fin S64x256x4.rank) ∈ dot_S64x2048x256_S64x256x4_S64x2048x4_2_1_1_2_0_0.rhsBatch by decide)]
  rfl
theorem rhs_dot2_1 (i : S64x2048x4.Idx) (q : dot_S64x2048x256_S64x256x4_S64x2048x4_2_1_1_2_0_0.contr.Idx) :
    (dot_S64x2048x256_S64x256x4_S64x2048x4_2_1_1_2_0_0.rhsIdx i q 1).val = (q ⟨0, by decide⟩).val :=
  dot_S64x2048x256_S64x256x4_S64x2048x4_2_1_1_2_0_0.rhsIdx_val_of_single rfl i q
theorem rhs_dot2_2 (i : S64x2048x4.Idx) (q : dot_S64x2048x256_S64x256x4_S64x2048x4_2_1_1_2_0_0.contr.Idx) :
    (dot_S64x2048x256_S64x256x4_S64x2048x4_2_1_1_2_0_0.rhsIdx i q 2).val = (i 2).val := by
  unfold DotDims.rhsIdx
  rw [dif_neg (show ¬(2 : Fin S64x256x4.rank) ∈ dot_S64x2048x256_S64x256x4_S64x2048x4_2_1_1_2_0_0.rhsBatch by decide), dif_pos (show (2 : Fin S64x256x4.rank) ∈ dot_S64x2048x256_S64x256x4_S64x2048x4_2_1_1_2_0_0.rhsNonContracting by decide)]
  rfl

/-- The batched contraction at an index: for the field `e`, the sum over the contracted axis of the left operand's
    row `p` times the right operand's column `j`. -/
theorem dot2_apply (x : FVec Ideal S64x2048x256 .f32) (w : FVec Ideal S64x256x4 .f32) (e : Fin 64) (p : Fin 2048) (j : Fin 4) :
    Host.dotGeneral dot_S64x2048x256_S64x256x4_S64x2048x4_2_1_1_2_0_0 none x w (ix3 e p j) = ∑ k : Fin 256, x (ix3 e p k) * w (ix3 e k j) := by
  simp only [Host.dotGeneral]
  rw [Ideal.dotGeneral_apply, ← Equiv.sum_comp (ValueIdx.contrEquiv1 dot_S64x2048x256_S64x256x4_S64x2048x4_2_1_1_2_0_0 256 rfl rfl).symm]
  refine Finset.sum_congr rfl fun k _ => ?_
  have hk := ValueIdx.contrEquiv1_symm_val dot_S64x2048x256_S64x256x4_S64x2048x4_2_1_1_2_0_0 256 rfl rfl k
  have el : dot_S64x2048x256_S64x256x4_S64x2048x4_2_1_1_2_0_0.lhsIdx (ix3 e p j) ((ValueIdx.contrEquiv1 dot_S64x2048x256_S64x256x4_S64x2048x4_2_1_1_2_0_0 256 rfl rfl).symm k) = ix3 e p k :=
    funext fun a => Fin.ext (by
      match a with
      | ⟨0, _⟩ => exact lhs_dot2_0 _ _
      | ⟨1, _⟩ => exact lhs_dot2_1 _ _
      | ⟨2, _⟩ => exact (lhs_dot2_2 _ _).trans hk)
  have er : dot_S64x2048x256_S64x256x4_S64x2048x4_2_1_1_2_0_0.rhsIdx (ix3 e p j) ((ValueIdx.contrEquiv1 dot_S64x2048x256_S64x256x4_S64x2048x4_2_1_1_2_0_0 256 rfl rfl).symm k) = ix3 e k j :=
    funext fun a => Fin.ext (by
      match a with
      | ⟨0, _⟩ => exact rhs_dot2_0 _ _
      | ⟨1, _⟩ => exact (rhs_dot2_1 _ _).trans hk
      | ⟨2, _⟩ => exact rhs_dot2_2 _ _)
  rw [el, er]

/-! ### The biases, the layers and the result -/

/-- A hidden layer's bias spread over the points reads the field's entry for the output coordinate. -/
theorem bias256_ix3 (b : FVec Ideal S64x256 .f32) (e : Fin 64) (p : Fin 2048) (j : Fin 256) :
    broadcastInDim S64x2048x256 ![0, 1, 2] bcast_S64x1x256_S64x2048x256_0_1_2
      (broadcastInDim S64x1x256 ![0, 2] bcast_S64x256_S64x1x256_0_2 b) (ix3 e p j) = b (ix2 e j) := by
  refine (broadcastInDim_apply _ _ _ (ix3 e p j) (ix3 e (0 : Fin 1) j) (fun a => match a with
    | ⟨0, _⟩ => by show e.val = if (64 : Nat) = 1 then 0 else e.val; rw [if_neg (by decide)]
    | ⟨1, _⟩ => by show 0 = if (1 : Nat) = 1 then 0 else p.val; rw [if_pos rfl]
    | ⟨2, _⟩ => by show j.val = if (256 : Nat) = 1 then 0 else j.val; rw [if_neg (by decide)])).trans ?_
  exact broadcastInDim_apply _ _ b (ix3 e (0 : Fin 1) j) (ix2 e j) (fun a => match a with
    | ⟨0, _⟩ => by show e.val = if (64 : Nat) = 1 then 0 else e.val; rw [if_neg (by decide)]
    | ⟨1, _⟩ => by show j.val = if (256 : Nat) = 1 then 0 else j.val; rw [if_neg (by decide)])

/-- The last layer's bias likewise. -/
theorem bias4_ix3 (b : FVec Ideal S64x4 .f32) (e : Fin 64) (p : Fin 2048) (j : Fin 4) :
    broadcastInDim S64x2048x4 ![0, 1, 2] bcast_S64x1x4_S64x2048x4_0_1_2
      (broadcastInDim S64x1x4 ![0, 2] bcast_S64x4_S64x1x4_0_2 b) (ix3 e p j) = b (ix2 e j) := by
  refine (broadcastInDim_apply _ _ _ (ix3 e p j) (ix3 e (0 : Fin 1) j) (fun a => match a with
    | ⟨0, _⟩ => by show e.val = if (64 : Nat) = 1 then 0 else e.val; rw [if_neg (by decide)]
    | ⟨1, _⟩ => by show 0 = if (1 : Nat) = 1 then 0 else p.val; rw [if_pos rfl]
    | ⟨2, _⟩ => by show j.val = if (4 : Nat) = 1 then 0 else j.val; rw [if_neg (by decide)])).trans ?_
  exact broadcastInDim_apply _ _ b (ix3 e (0 : Fin 1) j) (ix2 e j) (fun a => match a with
    | ⟨0, _⟩ => by show e.val = if (64 : Nat) = 1 then 0 else e.val; rw [if_neg (by decide)]
    | ⟨1, _⟩ => by show j.val = if (4 : Nat) = 1 then 0 else j.val; rw [if_neg (by decide)])

/-- The first hidden layer at an index is the specification's. -/
theorem hid0_ix3 (a0 : FVec Ideal S64x2048x2 .f32) (a1 a2 : FVec Ideal S64x2 .f32) (a3 : FVec Ideal S64x2x256 .f32)
    (a4 : FVec Ideal S64x256 .f32) (e : Fin 64) (p : Fin 2048) (j : Fin 256) :
    hid0 (F := Ideal) a0 a1 a2 a3 a4 (ix3 e p j) = Cert.FieldSpec.h0 a0 a1 a2 a3 a4 e p j := by
  unfold hid0
  rw [maximumf_apply, addf_apply, zeros_ix, bias256_ix3, dot0_apply]
  simp only [localPts_ix3]
  rfl

/-- The second hidden layer at an index is the specification's. -/
theorem hid1_ix3 (a0 : FVec Ideal S64x2048x2 .f32) (a1 a2 : FVec Ideal S64x2 .f32) (a3 : FVec Ideal S64x2x256 .f32)
    (a4 : FVec Ideal S64x256 .f32) (a5 : FVec Ideal S64x256x256 .f32) (a6 : FVec Ideal S64x256 .f32)
    (e : Fin 64) (p : Fin 2048) (j : Fin 256) :
    hid1 (F := Ideal) a0 a1 a2 a3 a4 a5 a6 (ix3 e p j) = Cert.FieldSpec.h1 a0 a1 a2 a3 a4 a5 a6 e p j := by
  unfold hid1
  rw [maximumf_apply, addf_apply, zeros_ix, bias256_ix3, dot1_apply]
  simp only [hid0_ix3]
  rfl

/-- The result at an index is the specification's output there. -/
theorem refTerm_ix3 (a0 : FVec Ideal S64x2048x2 .f32) (a1 a2 : FVec Ideal S64x2 .f32) (a3 : FVec Ideal S64x2x256 .f32)
    (a4 : FVec Ideal S64x256 .f32) (a5 : FVec Ideal S64x256x256 .f32) (a6 : FVec Ideal S64x256 .f32)
    (a7 : FVec Ideal S64x256x4 .f32) (a8 : FVec Ideal S64x4 .f32) (e : Fin 64) (p : Fin 2048) (j : Fin 4) :
    refTerm (F := Ideal) a0 a1 a2 a3 a4 a5 a6 a7 a8 (ix3 e p j)
      = Cert.FieldSpec.outAt a0 a1 a2 a3 a4 a5 a6 a7 a8 e p j := by
  unfold refTerm
  rw [addf_apply, bias4_ix3, dot2_apply]
  simp only [hid1_ix3]
  rfl

/-- Over the extended reals the reference computes the specification, at every index. -/
theorem refTerm_eq (a0 : FVec Ideal S64x2048x2 .f32) (a1 a2 : FVec Ideal S64x2 .f32) (a3 : FVec Ideal S64x2x256 .f32)
    (a4 : FVec Ideal S64x256 .f32) (a5 : FVec Ideal S64x256x256 .f32) (a6 : FVec Ideal S64x256 .f32)
    (a7 : FVec Ideal S64x256x4 .f32) (a8 : FVec Ideal S64x4 .f32) :
    refTerm (F := Ideal) a0 a1 a2 a3 a4 a5 a6 a7 a8 = Cert.FieldSpec.out a0 a1 a2 a3 a4 a5 a6 a7 a8 := by
  funext i
  obtain ⟨e, p, j, rfl⟩ : ∃ (e : Fin 64) (p : Fin 2048) (j : Fin 4), i = ix3 e p j := ⟨_, _, _, eq_ix3 i⟩
  exact (refTerm_ix3 a0 a1 a2 a3 a4 a5 a6 a7 a8 e p j).trans (Cert.FieldSpec.out_ix3 a0 a1 a2 a3 a4 a5 a6 a7 a8 e p j).symm

end Cert.ReferenceIdeal.RefValue

end
-- ==== Proof.lean ====
/-
  The certificate of a set of posed neural fields: for each of 64 fields, 2048 query points are moved into the
  field's frame (a translation, then the rotation by the conjugate of a unit complex number) and fed to a
  three-layer perceptron 2 → 256 → 256 → 4 with the field's own weights.

  The kernel does this one field per grid point, the rotation fused into the body and the three matrix products
  taken on blocks; the reference does it with batched contractions over all fields at once, the conjugate formed
  as a product with (1, −1) and the complex product by its formula. Over the extended reals both compute the
  function `Cert.FieldSpec.out` of the nine argument arrays, index by index (`Cert.KernelIdeal.FieldValue.run`,
  `Cert.ReferenceIdeal.RefValue.run` with `refTerm_eq`): a change of float format is the identity there, a matrix
  product is a finite sum whatever its blocking, multiplying or dividing by one changes nothing, and
  `a − (−b)·d = a + b·d` holds at every extended real, so the equality needs no finiteness of the inputs. The
  ideal pass rewrote nothing in the kernel, so the preservation claim has no conjunct.
-/
import proofs.«123930_g18605798326295_fold_wed_c4_331_5_alg».proof.Defs
import proofs.«123930_g18605798326295_fold_wed_c4_331_5_alg».proof.Proof.Gen.Kernel
import proofs.«123930_g18605798326295_fold_wed_c4_331_5_alg».proof.Proof.Gen.Kernel.Skeleton
import proofs.«123930_g18605798326295_fold_wed_c4_331_5_alg».proof.Proof.Gen.Kernel.Launch
import proofs.«123930_g18605798326295_fold_wed_c4_331_5_alg».proof.Proof.Gen.Kernel.Points
import proofs.«123930_g18605798326295_fold_wed_c4_331_5_alg».proof.Proof.Gen.Kernel.Frame
import proofs.«123930_g18605798326295_fold_wed_c4_331_5_alg».proof.Proof.Gen.KernelIdeal
import proofs.«123930_g18605798326295_fold_wed_c4_331_5_alg».proof.Proof.Gen.KernelIdeal.Skeleton
import proofs.«123930_g18605798326295_fold_wed_c4_331_5_alg».proof.Proof.Gen.KernelIdeal.Launch
import proofs.«123930_g18605798326295_fold_wed_c4_331_5_alg».proof.Proof.Gen.KernelIdeal.Points
import proofs.«123930_g18605798326295_fold_wed_c4_331_5_alg».proof.Proof.Gen.KernelIdeal.Frame
import proofs.«123930_g18605798326295_fold_wed_c4_331_5_alg».proof.Proof.Gen.KernelIdeal.Value
import proofs.«123930_g18605798326295_fold_wed_c4_331_5_alg».proof.Proof.Gen.ReferenceIdeal
import proofs.«123930_g18605798326295_fold_wed_c4_331_5_alg».proof.Proof.Gen.Pre_finite_inputs
import proofs.«123930_g18605798326295_fold_wed_c4_331_5_alg».proof.Proof.KernelArray
import proofs.«123930_g18605798326295_fold_wed_c4_331_5_alg».proof.Proof.RefRun
import proofs.«123930_g18605798326295_fold_wed_c4_331_5_alg».proof.Proof.RefRead
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of host operations none of which writes an argument. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- The ideal pass rewrote no operation of the kernel. -/
theorem preserves : Cert.preserves_Kernel_KernelIdeal := trivial

/-- From memories agreeing on the nine arguments both programs end with the result array at the specification of
    those arguments. -/
theorem algebraic : Cert.algebraic_KernelIdeal_ReferenceIdeal := by
  intro m ρ m' ρ' _ hagree
  refine ⟨_, Cert.KernelIdeal.FieldValue.run m ρ, ?_⟩
  refine (θ_run Cert.ReferenceIdeal.defs _ _).mono (fun _ h c => ⟨(h c).1.trans ?_, (h c).2⟩)
    (Cert.ReferenceIdeal.RefValue.run (F := Ideal) m' ρ')
  obtain ⟨e0, e1, e2, e3, e4, e5, e6, e7, e8⟩ := hagree c
  rw [Cert.ReferenceIdeal.RefValue.refTerm_eq, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
